-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x40 : Shape := ⟨2, ![256, 40]⟩
abbrev S40 : Shape := ⟨1, ![40]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S100000x256 .f32) (main_arg1 : FVec F S256x40 .f32) (main_arg2 : FVec F S40 .f32) (main_arg3 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x40 .f32 := Host.absf main_arg1
  let main_cst_0 : FVec F S_ .f32 := constant S_ .f32 0x7F800000#32
  let main_v5 : FVec F S256x40 .f32 := broadcastInDim S256x40 ![] bcast_S_S256x40 main_cst_0
  let main_v6 : IVec S256x40 1 := cmpf .olt main_v4 main_v5
  let main_c_1 : IVec S_ 1 := constantI S_ 1 1#1
  let main_v7 : IVec S_ 1 := (fun x v => Host.reduce IntOp.andi x v reducesTo_S256x40_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S100000x256 : Shape := ⟨2, ![100000, 256]⟩
abbrev S256x40 : Shape := ⟨2, ![256, 40]⟩
abbrev S40 : Shape := ⟨1, ![40]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x40 : Shape := ⟨2, ![100000, 40]⟩
abbrev S5000x256 : Shape := ⟨2, ![5000, 256]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 63
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S256x40, .f32⟩
  | .hbm, ⟨2, _⟩ => ⟨S40, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x40, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x40, .f32⟩
  | .hbm, ⟨54, _⟩ => ⟨S1700000x1, .f32⟩
  | .hbm, ⟨55, _⟩ => ⟨S1700000x40, .f32⟩
  | .hbm, ⟨56, _⟩ => ⟨S1700000x40, .f32⟩
  | .hbm, ⟨57, _⟩ => ⟨S_, .f32⟩
  | .hbm, ⟨58, _⟩ => ⟨S100000x40, .f32⟩
  | .hbm, ⟨59, _⟩ => ⟨S1700000x1, .i32⟩
  | .hbm, ⟨60, _⟩ => ⟨S100000x40, .f32⟩
  | .hbm, ⟨61, _⟩ => ⟨S1x40, .f32⟩
  | .hbm, ⟨62, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x40, .f32⟩
  | .local _ .vmem, ⟨3, _⟩ => ⟨S5000x40, .f32⟩
  | .local _ .vmem, ⟨4, _⟩ => ⟨S5000x40, .f32⟩
  | .local _ .vmem, ⟨5, _⟩ => ⟨S5000x40, .f32⟩
  | .local _ .vmem, ⟨6, _⟩ => ⟨S5000x40, .f32⟩
  | .local _ .vmem, ⟨7, _⟩ => ⟨S1x40, .f32⟩
  | .local _ .vmem, ⟨8, _⟩ => ⟨S5000x40, .f32⟩
  | .local _ .vmem, ⟨9, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x40_S256x40_0_0 : ∀ a, (![0, 0] : Fin 2 → Nat) a + S256x40.size a ≤ S256x40.size a
  h_S256x40 : 0 < S256x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x40_S5000x40_1_0_0_1_n_n_wf : DotDims.WF S5000x256 S256x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x40.size a ≤ S256x40.size a
  hwx0_1 : ∀ i : grid0.Coords, EltTy.bits .f32 = 32 ∨ (Rect.block (s := S256x40) S256x40.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x40.size a ≤ S100000x40.size a
  hwx0_2 : ∀ i : grid0.Coords, EltTy.bits .f32 = 32 ∨ (Rect.block (s := S100000x40) S5000x40.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x40.size a ≤ S100000x40.size a
  hwx1_0 : ∀ i : grid1.Coords, EltTy.bits .f32 = 32 ∨ (Rect.block (s := S100000x40) S5000x40.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x40.size a ≤ S1x40.size a
  hwx1_1 : ∀ i : grid1.Coords, EltTy.bits .f32 = 32 ∨ (Rect.block (s := S1x40) S1x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x40.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x40 : Shape := ⟨2, ![256, 40]⟩
abbrev S40 : Shape := ⟨1, ![40]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x40, .f32⟩
  | .hbm, ⟨2, _⟩ => ⟨S40, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x40, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x40, .f32⟩
  | .hbm, ⟨54, _⟩ => ⟨S1700000x1, .f32⟩
  | .hbm, ⟨55, _⟩ => ⟨S1700000x40, .f32⟩
  | .hbm, ⟨56, _⟩ => ⟨S1700000x40, .f32⟩
  | .hbm, ⟨57, _⟩ => ⟨S_, .f32⟩
  | .hbm, ⟨58, _⟩ => ⟨S100000x40, .f32⟩
  | .hbm, ⟨59, _⟩ => ⟨S1700000x1, .i32⟩
  | .hbm, ⟨60, _⟩ => ⟨S100000x40, .f32⟩
  | .hbm, ⟨61, _⟩ => ⟨S1x40, .f32⟩
  | .hbm, ⟨62, _⟩ => ⟨S100000x40, .f32⟩
  | .hbm, ⟨63, _⟩ => ⟨S100000x40, .f32⟩
  | .hbm, ⟨64, _⟩ => ⟨S_, .f32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x40, .f32⟩
  | .hbm, ⟨71, _⟩ => ⟨S100000x40, .f32⟩
  | .hbm, ⟨72, _⟩ => ⟨S100000x40, .f32⟩
  | .hbm, ⟨73, _⟩ => ⟨S_, .f32⟩
  | .hbm, ⟨74, _⟩ => ⟨S100000, .f32⟩
  | .hbm, ⟨75, _⟩ => ⟨S100000x1, .f32⟩
  | .hbm, ⟨76, _⟩ => ⟨S100000x1, .f32⟩
  | .hbm, ⟨77, _⟩ => ⟨S100000x40, .f32⟩
  | .hbm, ⟨78, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_call1_cst_0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_cst_1 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_v47 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x40_S100000x40_1_0_0_1_n_n_wf : DotDims.WF S100000x256 S256x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with its result NAMED. @main is six segments — three stretches of host operations, the
  first pallas_call (the blocked product `x · W`), a fourth stretch (the aggregation over the graph), the second
  pallas_call (the bias and the row-wise log-softmax) — and the buffers' contents at each boundary are a fold from
  the launch memory: a stretch applies its operations, a pallas_call leaves each of its arrays at what its
  write-backs fold to and every other buffer as it found it. Every weakly fair execution terminates with every
  unscoped buffer at the last boundary's contents `W6`; read at the result buffer and at the four arguments, that is
  the statement below. What `W6` holds at the result buffer is opened in the modules that import this one.
-/
import proofs.«152880_j4604204942081_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the four argument arrays as launched. -/
theorem run_named : θ_run defs (onTc (τ := τ) (main (F := F))) ⟨m, fun _ => 0, ρ⟩ (fun r => ∀ c : Dev nD,
      r.2.mem ((c.tc : Thread nD τ).loc main_v45) = W6 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v45 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Whole

end
-- ==== Proof.GraphStage.lean ====
/-
  The stages the kernel's program and the reference share, each as one function of its operands.

  Both programs build the same normalised graph aggregation around their dense parts. From the edge list
  `e : i32[2, 1600000]` they take the source row and the target row, append the self loops `0, …, 99999` to each
  (`sources`, `targets`: 1 700 000 end points), count the in-degree of every node by adding a one per target
  (`degree`), take `d ↦ d^(-1/2)` where the degree is positive and `0` elsewhere (`invSqrtDegree`), and weight
  edge `k` by the product of that factor at its two end points (`edgeWeight`). Given a table `h : f32[100000, 40]`
  of node features the aggregation (`aggregate`) gathers the row of each edge's source, scales it by the edge's
  weight and adds it into the row of the edge's target. An index read out of the edge list is first wrapped the way
  jnp wraps a negative index (`i < 0 ↦ i + 100000`: `wrapColumn`) where it selects a row to gather, and is used as it
  is where it selects a row to add into.

  The reference then adds the bias row and takes a row-wise log-softmax on the host (`biased`, `hostLogSoftmax`):
  with `y = S + b`, `M_r = max(-∞, max_q y[r, q])`, `z = y - M`, the result is `z[r, q] - log (Σ_q' exp z[r, q'])`.
  `referenceResult` is the whole reference as one function of its four arguments.

  Every stage is stated at any float instance `F`; nothing here is evaluated.
-/
import proofs.«152880_j4604204942081_1_alg».proof.Proof.Gen.ReferenceIdeal

noncomputable section

namespace Cert.Gcn

open Cert.ReferenceIdeal Cert.ReferenceIdeal.Gen Idealize.ShloMosaic

variable {F : FTy → Type} [FloatOps F]

/-- The source end point of every edge, the self loops appended. -/
def sources (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The target end point of every edge, the self loops appended. -/
def targets (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A vector of node numbers as a column of gather start indices, a negative number wrapped by the node count. -/
def wrapColumn (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The in-degree of every node, self loop included: a one added per target. -/
def degree (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 d)
    (broadcastInDim S1700000 ![] bcast_S_S1700000 (constant (F := F) S_ .f32 0x3F800000#32))

/-- `deg^(-1/2)` where the degree is positive, zero elsewhere. -/
def invSqrtDegree (g : (⟨S100000, .f32⟩ : BufTy).Contents (Elt F)) : (⟨S100000, .f32⟩ : BufTy).Contents (Elt F) :=
  select (cmpf (F := F) .ogt g (broadcastInDim S100000 ![] bcast_S_S100000 (constant (F := F) S_ .f32 0x00000000#32)))
    (Host.rsqrt (F := F) g)
    (broadcastInDim S100000 ![] bcast_S_S100000 (id (constant (F := F) S_ .f32 0x00000000#32)))

/-- The weight of every edge from a table `g` of node factors: the factor at the edge's source times the factor at its
    target. -/
def edgeWeightOf (g : (⟨S100000, .f32⟩ : BufTy).Contents (Elt F)) (s d : (⟨S1700000, .i32⟩ : BufTy).Contents (Elt F)) :
    (⟨S1700000, .f32⟩ : BufTy).Contents (Elt F) :=
  mulf (Host.gather gather_S100000_S1700000x1_S1700000_n_0_n_n_0_1_1 g (wrapColumn (F := F) s))
    (Host.gather gather_S100000_S1700000x1_S1700000_n_0_n_n_0_1_1 g (wrapColumn (F := F) d))

/-- The weight of every edge: the product of the degree factor at its source and at its target. -/
def edgeWeight (s d : (⟨S1700000, .i32⟩ : BufTy).Contents (Elt F)) : (⟨S1700000, .f32⟩ : BufTy).Contents (Elt F) :=
  edgeWeightOf (F := F) (invSqrtDegree (F := F) (degree (F := F) d)) s d

/-- The aggregation: row `src k` of `h`, scaled by `w k`, added into row `dst k`, over every edge `k`. -/
def aggregate (h : (⟨S100000x40, .f32⟩ : BufTy).Contents (Elt F)) (s d : (⟨S1700000, .i32⟩ : BufTy).Contents (Elt F))
    (w : (⟨S1700000, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant (F := F) S_ .f32 0x00000000#32))
    (broadcastInDim S1700000x1 ![0] bcast_S1700000_S1700000x1_0 d)
    (mulf (Host.gather gather_S100000x40_S1700000x1_S1700000x40_1_0_n_n_0_1_140 h (wrapColumn (F := F) s))
      (broadcastInDim S1700000x40 ![0, 1] bcast_S1700000x1_S1700000x40_0_1 (broadcastInDim S1700000x1 ![0] bcast_S1700000_S1700000x1_0 w)))

/-- The aggregation of `h` over the graph the edge list `e` describes. -/
def aggregateOver (h : (⟨S100000x40, .f32⟩ : BufTy).Contents (Elt F)) (e : (⟨S2x1600000, .i32⟩ : BufTy).Contents (Elt F)) :
    (⟨S100000x40, .f32⟩ : BufTy).Contents (Elt F) :=
  aggregate (F := F) h (sources (F := F) e) (targets (F := F) e) (edgeWeight (F := F) (sources (F := F) e) (targets (F := F) e))

/-- The bias row added to every row of the table. -/
def biased (S : (⟨S100000x40, .f32⟩ : BufTy).Contents (Elt F)) (b : (⟨S40, .f32⟩ : BufTy).Contents (Elt F)) :
    (⟨S100000x40, .f32⟩ : BufTy).Contents (Elt F) :=
  addf S (broadcastInDim S100000x40 ![0, 1] bcast_S1x40_S100000x40_0_1 (broadcastInDim S1x40 ![1] bcast_S40_S1x40_1 b))

/-- Every row's maximum, the reduction started from `-∞`. -/
def hostRowMaxFrom (y : (⟨S100000x40, .f32⟩ : BufTy).Contents (Elt F)) : (⟨S100000, .f32⟩ : BufTy).Contents (Elt F) :=
  Host.reduce FloatOps.maximumf y (constant (F := F) S_ .f32 0xFF800000#32) reducesTo_S100000x40_S100000_d1 h_S_

/-- Every row shifted by `max(-∞, r)`, `r` a value per row (the row's maximum, compared with `-∞` once more as the
    host does). -/
def hostShiftBy (y : (⟨S100000x40, .f32⟩ : BufTy).Contents (Elt F)) (r : (⟨S100000, .f32⟩ : BufTy).Contents (Elt F)) :
    (⟨S100000x40, .f32⟩ : BufTy).Contents (Elt F) :=
  subf y (broadcastInDim S100000x40 ![0, 1] bcast_S100000x1_S100000x40_0_1 (broadcastInDim S100000x1 ![0] bcast_S100000_S100000x1_0
    (maximumf (broadcastInDim S100000 ![] bcast_S_S100000 (constant (F := F) S_ .f32 0xFF800000#32)) r)))

/-- Every row's sum, started from the zero word. -/
def hostRowSum (x : (⟨S100000x40, .f32⟩ : BufTy).Contents (Elt F)) : (⟨S100000, .f32⟩ : BufTy).Contents (Elt F) :=
  Host.reduceAdd (F := F) x (constant (F := F) S_ .f32 0x00000000#32) reducesTo_S100000x40_S100000_d1 h_S_

/-- Every row less the logarithm of a value per row. -/
def hostLessLogOf (z : (⟨S100000x40, .f32⟩ : BufTy).Contents (Elt F)) (t : (⟨S100000, .f32⟩ : BufTy).Contents (Elt F)) :
    (⟨S100000x40, .f32⟩ : BufTy).Contents (Elt F) :=
  subf z (broadcastInDim S100000x40 ![0, 1] bcast_S100000x1_S100000x40_0_1
    (Host.log (F := F) (broadcastInDim S100000x1 ![0] bcast_S100000_S100000x1_0 t)))

/-- The host's row-wise log-softmax: every row shifted by its maximum, less the logarithm of the sum of the exponentials
    of the shifted row. -/
def hostLogSoftmax (y : (⟨S100000x40, .f32⟩ : BufTy).Contents (Elt F)) : (⟨S100000x40, .f32⟩ : BufTy).Contents (Elt F) :=
  hostLessLogOf (F := F) (hostShiftBy (F := F) y (hostRowMaxFrom (F := F) y))
    (hostRowSum (F := F) (Host.exp (F := F) (hostShiftBy (F := F) y (hostRowMaxFrom (F := F) y))))

/-- The reference as one function of its arguments: log-softmax of the aggregated product `x · W` plus the bias. -/
def referenceResult (x : (⟨S100000x256, .f32⟩ : BufTy).Contents (Elt F)) (W : (⟨S256x40, .f32⟩ : BufTy).Contents (Elt F))
    (b : (⟨S40, .f32⟩ : BufTy).Contents (Elt F)) (e : (⟨S2x1600000, .i32⟩ : BufTy).Contents (Elt F)) :
    (⟨S100000x40, .f32⟩ : BufTy).Contents (Elt F) :=
  hostLogSoftmax (F := F) (biased (F := F)
    (aggregateOver (F := F) (Host.dotGeneral (F := F) dot_S100000x256_S256x40_S100000x40_1_0_0_1_n_n none x W) e) b)

end Cert.Gcn

end
-- ==== Proof.LibConcatPair.lean ====
/-
  A general fact about joining two arrays along an axis, for any shapes and any element type.

  * cat2: the join of two arrays along an axis, as a function of the two arrays (the library's join takes a
    list of shaped parts, and its side condition speaks of that list).
  * cat2_fold: the library's join of a two-element list is cat2 of the two parts.  Read from left to right it
    exposes the two parts as plain arguments: equal parts give equal joins, one part at a time.
-/
import Idealize.ShloMosaic.PureOps.ShapeOps

namespace Cert.Lib.ConcatPair

open Idealize.ShloMosaic

/-- The join of two arrays along axis `d` of the result shape, as a function of the two arrays. -/
def cat2 {α : Type} (t : Shape) (d : Fin t.rank) (s₁ s₂ : Shape) (a : s₁.Idx → α) (b : s₂.Idx → α)
    (h : Shape.Concatenates [s₁, s₂] t d) : t.Idx → α := concatenate t d [⟨s₁, a⟩, ⟨s₂, b⟩] h

/-- The join of a two-element list of shaped parts is the join of the two parts. -/
theorem cat2_fold {α : Type} (t : Shape) (d : Fin t.rank) (s₁ s₂ : Shape) (a : s₁.Idx → α) (b : s₂.Idx → α)
    (h : Shape.Concatenates [s₁, s₂] t d) : concatenate t d [⟨s₁, a⟩, ⟨s₂, b⟩] h = cat2 t d s₁ s₂ a b h := rfl

end Cert.Lib.ConcatPair
-- ==== Proof.ProductBody.lean ====
/-
  The product kernel's body at an index. The body narrows its two loaded blocks to bf16 — the identity at the ideal
  instance — and multiplies the [5000, 256] block of `x` by the whole [256, 40] matrix `W` into a zero accumulator:
  entry (p, q) of what it stores is `Σ_k x0[p, k] · x1[k, q]` over the 256 contracted coordinates. The dimension
  record contracts axis 1 of the left operand with axis 0 of the right one, so at output index (p, q) and contraction
  coordinate `k` the operands are read at (p, k) and (k, q).
-/
import proofs.«152880_j4604204942081_1_alg».proof.Proof.Gen.KernelIdeal.Skeleton
import Idealize.ShloMosaic.Lib.ValueIdx
import Idealize.ShloMosaic.PureOps.Ideal.Laws

noncomputable section

open scoped BigOperators

namespace Cert.KernelIdeal.ProductBody

open Cert.KernelIdeal Cert.KernelIdeal.Gen Idealize.ShloMosaic Idealize.ShloMosaic.ValueIdx

theorem lhs_row (i : S5000x40.Idx) (q : dot_S5000x256_S256x40_S5000x40_1_0_0_1_n_n.contr.Idx) :
    (dot_S5000x256_S256x40_S5000x40_1_0_0_1_n_n.lhsIdx i q 0).val = (i 0).val := by
  unfold DotDims.lhsIdx
  rw [dif_neg (show ¬(0 : Fin S5000x256.rank) ∈ dot_S5000x256_S256x40_S5000x40_1_0_0_1_n_n.lhsBatch by decide), dif_pos (show (0 : Fin S5000x256.rank) ∈ dot_S5000x256_S256x40_S5000x40_1_0_0_1_n_n.lhsNonContracting by decide)]
  rfl
theorem lhs_contracted (i : S5000x40.Idx) (q : dot_S5000x256_S256x40_S5000x40_1_0_0_1_n_n.contr.Idx) :
    (dot_S5000x256_S256x40_S5000x40_1_0_0_1_n_n.lhsIdx i q 1).val = (q ⟨0, by decide⟩).val :=
  dot_S5000x256_S256x40_S5000x40_1_0_0_1_n_n.lhsIdx_val_of_single rfl i q
theorem rhs_contracted (i : S5000x40.Idx) (q : dot_S5000x256_S256x40_S5000x40_1_0_0_1_n_n.contr.Idx) :
    (dot_S5000x256_S256x40_S5000x40_1_0_0_1_n_n.rhsIdx i q 0).val = (q ⟨0, by decide⟩).val :=
  dot_S5000x256_S256x40_S5000x40_1_0_0_1_n_n.rhsIdx_val_of_single rfl i q
theorem rhs_column (i : S5000x40.Idx) (q : dot_S5000x256_S256x40_S5000x40_1_0_0_1_n_n.contr.Idx) :
    (dot_S5000x256_S256x40_S5000x40_1_0_0_1_n_n.rhsIdx i q 1).val = (i 1).val := by
  unfold DotDims.rhsIdx
  rw [dif_neg (show ¬(1 : Fin S256x40.rank) ∈ dot_S5000x256_S256x40_S5000x40_1_0_0_1_n_n.rhsBatch by decide), dif_pos (show (1 : Fin S256x40.rank) ∈ dot_S5000x256_S256x40_S5000x40_1_0_0_1_n_n.rhsNonContracting by decide)]
  rfl

/-- The body's stored value at (p, q): the 256-term sum of products of row `p` of the left block and column `q` of
    the right one. -/
theorem payload_apply (x0 : Vec Ideal S5000x256 .f32) (x1 : Vec Ideal S256x40 .f32) (p : Fin 5000) (q : Fin 40) :
    k0_pay1 (F := Ideal) x0 x1 (ix2 p q) = ∑ k : Fin 256, x0 (ix2 p k) * x1 (ix2 k q) := by
  unfold k0_pay1
  simp only [matmul]
  rw [Ideal.matmul_constant_zero_apply, ← Equiv.sum_comp (ValueIdx.contrEquiv1 dot_S5000x256_S256x40_S5000x40_1_0_0_1_n_n 256 rfl rfl).symm]
  refine Finset.sum_congr rfl fun k _ => ?_
  have hk := ValueIdx.contrEquiv1_symm_val dot_S5000x256_S256x40_S5000x40_1_0_0_1_n_n 256 rfl rfl k
  have el : dot_S5000x256_S256x40_S5000x40_1_0_0_1_n_n.lhsIdx (ix2 p q) ((ValueIdx.contrEquiv1 dot_S5000x256_S256x40_S5000x40_1_0_0_1_n_n 256 rfl rfl).symm k) = ix2 p k := funext fun a => Fin.ext (by
    match a with
    | ⟨0, _⟩ => exact lhs_row _ _
    | ⟨1, _⟩ => exact (lhs_contracted _ _).trans hk)
  have er : dot_S5000x256_S256x40_S5000x40_1_0_0_1_n_n.rhsIdx (ix2 p q) ((ValueIdx.contrEquiv1 dot_S5000x256_S256x40_S5000x40_1_0_0_1_n_n 256 rfl rfl).symm k) = ix2 k q := funext fun a => Fin.ext (by
    match a with
    | ⟨0, _⟩ => exact (rhs_contracted _ _).trans hk
    | ⟨1, _⟩ => exact rhs_column _ _)
  rw [el, er]
  rfl

end Cert.KernelIdeal.ProductBody

end
-- ==== Proof.RowSpec.lean ====
/-
  What the two programs compute, as functions over the extended reals, index by index.

  `product x W` is the dense product: entry (r, c) is `Σ_k x[r, k] · W[k, c]`, 256 terms.

  `logSoftmaxRows S b` is the row-wise log-softmax of the table `S` with the bias row `b` added to every row: with
  `y_q = S[r, q] + b_q` and `M = max_q y_q` taken from `-∞` (`rowTop`), entry (r, q) is
  `(y_q - M) - log (Σ_k exp (y_k - M))`. The float words stay words: `-∞` is the pattern `0xFF800000` read at the
  ideal instance, never evaluated.

  A maximum taken from `-∞` does not change when it is compared with `-∞` once more (`max_rowTop`), and a sum started
  from the zero word is the sum (`zero_word_add`): the two places where the host's spelling of a log-softmax differs
  from the kernel's.
-/
import Idealize.ShloMosaic.PureOps.Ideal.Laws
import Idealize.ShloMosaic.Lib.ValueIdx

noncomputable section

open scoped BigOperators

namespace Cert.Gcn.Spec

open Idealize.ShloMosaic Idealize.ShloMosaic.ValueIdx

/-- The dense product `x · W`, entry by entry. -/
def product (x : (⟨2, ![100000, 256]⟩ : Shape).Idx → EReal) (W : (⟨2, ![256, 40]⟩ : Shape).Idx → EReal) :
    (⟨2, ![100000, 40]⟩ : Shape).Idx → EReal :=
  fun j => ∑ k : Fin 256, x (ix2 (j 0) k) * W (ix2 k (j 1))

/-- The greatest entry of a row of 40, the maximum taken from `-∞`. -/
def rowTop (y : Fin 40 → EReal) : EReal :=
  (Finset.univ : Finset (Fin 40)).fold max (Ideal.ofBits .f32 0xFF800000#32) y

/-- The log-softmax of one row: every entry less the row's greatest, less the logarithm of the sum of the exponentials
    of the entries so shifted. -/
def rowLogSoftmax (y : Fin 40 → EReal) (q : Fin 40) : EReal :=
  (y q - rowTop y) - Ideal.log (∑ k : Fin 40, Ideal.exp (y k - rowTop y))

/-- The row-wise log-softmax of a table with a bias row added to every row. -/
def logSoftmaxRows (S : (⟨2, ![100000, 40]⟩ : Shape).Idx → EReal) (b : Fin 40 → EReal) :
    (⟨2, ![100000, 40]⟩ : Shape).Idx → EReal :=
  fun j => rowLogSoftmax (fun k => S (ix2 (j 0) k) + b k) (j 1)

/-- A maximum already taken from `-∞` is not changed by `-∞`. -/
theorem max_rowTop (y : Fin 40 → EReal) : max (Ideal.ofBits .f32 0xFF800000#32) (rowTop y) = rowTop y :=
  max_eq_right ((Finset.le_fold_max _).2 (Or.inl le_rfl))

/-- A sum started from the zero word is the sum. -/
theorem zero_word_add (s : EReal) : Ideal.ofBits .f32 0x00000000#32 + s = s := by
  rw [Ideal.ofBits_zero_f32, zero_add]

end Cert.Gcn.Spec

end
-- ==== Proof.ProductRegion.lean ====
/-
  The first pallas_call as a whole-array function. Its grid has 20 points; at point `t` the body reads rows
  `5000·t … 5000·t + 4999` of `x` and the whole of `W`, and writes the same rows of the result. So the block a point
  writes back is that block of `Spec.product x W`, the twenty blocks cover the [100000, 40] result, and the result
  array after the call is `Spec.product` of the two operand arrays as the call finds them — whatever those are
  (`V`, the buffers' contents when the call is entered, is a parameter here).
-/
import proofs.«152880_j4604204942081_1_alg».proof.Proof.Gen.KernelIdeal.Frame
import proofs.«152880_j4604204942081_1_alg».proof.Proof.ProductBody
import proofs.«152880_j4604204942081_1_alg».proof.Proof.RowSpec
import Idealize.ShloMosaic.Lib.Pipeline.Value
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.ProductRegion

open Cert.KernelIdeal Cert.KernelIdeal.Gen Idealize.ShloMosaic.ValueIdx Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: block `t` of `x` and of the result is row block `t`; `W` has one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of `x` at point `t` is rows `5000·t …` of the array. -/
theorem xblock_apply (c : Dev nD) (t : Fin cfg0.N) (y : S5000x256.Idx) (i : S100000x256.Idx)
    (h0 : (i 0).val = t.val * 5000 + (y 0).val) (h1 : (i 1).val = (y 1).val) :
    (iblk0 V c 0 t : Vec Ideal S5000x256 .f32) y = (V c main_arg0 : S100000x256.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 256 + 1 * (y 1).val = (i 1).val; rw [e1, h1]; omega

/-- The block of `W` at every point is the whole array. -/
theorem wblock_apply (c : Dev nD) (t : Fin cfg0.N) (y : S256x40.Idx) :
    (iblk0 V c 1 t : Vec Ideal S256x40 .f32) y = (V c main_arg1 : S256x40.Idx → EReal) y := by
  obtain ⟨-, -, e2, e3, -⟩ := idx_facts t
  unfold iblk0
  rw [View.read_apply]
  show V c main_arg1 _ = V c main_arg1 _
  congr 1
  funext a
  apply Fin.ext
  match a with
  | ⟨0, _⟩ => show win0_1.index t 0 * 256 + 1 * (y 0).val = (y 0).val; rw [e2]; omega
  | ⟨1, _⟩ => show win0_1.index t 1 * 40 + 1 * (y 1).val = (y 1).val; rw [e3]; omega

/-- What point `t` writes back is block `t` of the product of the two operand arrays. -/
theorem flushed_eq (c : Dev nD) (t : Fin cfg0.N) :
    (dat0 V c).flushed 2 t = ((cfg0.win 2).blk t).view.read (Elt Ideal) (Spec.product (V c main_arg0) (V c main_arg1)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x40) hz]
  obtain ⟨-, -, -, -, e4, e5⟩ := idx_facts t
  refine funext fun j => ?_
  obtain ⟨p, q, rfl⟩ : ∃ (p : Fin 5000) (q : Fin 40), j = ix2 p q := ⟨j 0, j 1, eq_ix2 (n0 := 5000) (n1 := 40) j⟩
  refine (ProductBody.payload_apply (iblk0 V c 0 t) (iblk0 V c 1 t) p q).trans ?_
  show _ = Spec.product (V c main_arg0) (V c main_arg1) (((cfg0.win 2).blk t).view.emb (ix2 p q))
  unfold Spec.product
  refine Finset.sum_congr rfl fun k _ => ?_
  have hx := xblock_apply V c t (ix2 p k) (ix2 ((((cfg0.win 2).blk t).view.emb (ix2 p q)) 0) k)
    (by show win0_2.index t 0 * 5000 + 1 * p.val = t.val * 5000 + p.val; rw [e4]; omega) rfl
  have hw := wblock_apply V c t (ix2 k q)
  have hi : (ix2 k q : S256x40.Idx) = ix2 k ((((cfg0.win 2).blk t).view.emb (ix2 p q)) 1) := by
    funext a
    apply Fin.ext
    match a with
    | ⟨0, _⟩ => rfl
    | ⟨1, _⟩ => show q.val = win0_2.index t 1 * 40 + 1 * q.val; rw [e5]; omega
  rw [hx, hw, hi]
  rfl

/-- An index of the result is in point `t`'s block iff each coordinate is in the block's range on its axis. -/
theorem mem_blk (t : Fin cfg0.N) (i : S100000x40.Idx) :
    i ∈ ((cfg0.win 2).blk t).view.set ↔ ∀ a : Fin 2, win0_2.index t a * S5000x40.size a ≤ (i a).val ∧ (i a).val < win0_2.index t a * S5000x40.size a + S5000x40.size a := by
  show i ∈ ((View.whole main_v30).slice (win0_2.rect t)).set ↔ _
  rw [View.set_slice_whole, Rect.mem_set_unit]
  exact Iff.rfl

/-- Row `r` of the result is written by point `r / 5000`. -/
theorem cover (i : S100000x40.Idx) : ∃ t : Fin cfg0.N, (cfg0.win 2).flush t = true ∧ i ∈ ((cfg0.win 2).blk t).view.set := by
  have hi0 : (i 0).val < 100000 := (i 0).isLt
  have hi1 : (i 1).val < 40 := (i 1).isLt
  have hN : cfg0.N = 20 := N_0
  have ht : (i 0).val / 5000 < cfg0.N := by rw [hN]; omega
  refine ⟨⟨(i 0).val / 5000, ht⟩, flush0_2 _, ?_⟩
  rw [mem_blk]
  obtain ⟨-, -, -, -, e4, e5⟩ := idx_facts ⟨(i 0).val / 5000, ht⟩
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 40 ≤ (i 1).val ∧ (i 1).val < win0_2.index ⟨(i 0).val / 5000, ht⟩ 1 * 40 + 40
    rw [e5]; omega

/-- The result array after the call: the product of the two operand arrays as the call found them. -/
theorem final (c : Dev nD) : (dat0 V c).arrAt 2 cfg0.N = Spec.product (V c main_arg0) (V c main_arg1) :=
  (dat0 V c).arrAt_eq_of_cover 2 (Spec.product (V c main_arg0) (V c main_arg1)) (fun t _ => flushed_eq V c t) cover

end Cert.KernelIdeal.ProductRegion

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.LibRowReduceColumn.lean ====
/-
  A reduction along the rows of an [a, b] array, kept as a column [a, 1] (what `keepdims=True` leaves), read at an
  index at the ideal instance: the row's sum is the sum over the row's `b` entries, and the row's maximum taken from
  −∞ (and once more against −∞, as a softmax spells it) is the fold of `max` over them. Any sizes.
-/
import Idealize.ShloMosaic.PureOps.Ideal.Laws
import Idealize.ShloMosaic.Lib.ValueLayout
import proofs.«152880_j4604204942081_1_alg».proof.Proof.LibKeepdimsColumn

noncomputable section

open scoped BigOperators

namespace Cert.Lib.RowReduceColumn

open Idealize.ShloMosaic Idealize.ShloMosaic.ValueIdx

/-- The reduced index `p` of an [a, b] array reduced along its rows, with column `d` put back, is (p, d). -/
theorem lift_row {a b : ℕ} (h : (⟨2, ![a, b]⟩ : Shape).Reduces [1] (⟨1, ![a]⟩ : Shape)) (p : Fin a)
    (d : Fin ((⟨2, ![a, b]⟩ : Shape).size 1)) : h.lift (ix1 p) d = ix2 p (⟨d.val, d.isLt⟩ : Fin b) := by
  funext c; apply Fin.ext
  fin_cases c <;> rfl

/-- A row sum kept as a column, read at (p, u): the sum of row `p`'s entries. -/
theorem rowSum_column_apply {a b : ℕ} (v : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ d : Fin b, v (ix2 p d) :=
  (Cert.LibKeepdims.shapeCast_a_a1_apply _ hc p u).trans
    ((Ideal.multiReduction_add_single v _ h hφ hacc (ix1 p)).trans
      (Finset.sum_congr rfl fun d _ => congrArg v (lift_row h p d)))

/-- A row maximum from −∞, taken once more against −∞ and kept as a column, read at (p, u): the fold of `max` over
    row `p`'s entries. -/
theorem rowMax_column_apply {a b : ℕ} (v : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (maximumf (broadcast ⟨1, ![a]⟩ (Scalar.ofBits (F := Ideal) .f32 0xFF800000#32))
        (multiReduction .maximumf [1] ⟨1, ![a]⟩ v 0xFF800000#32 h hφ hacc)) hc (ix2 p u)
      = max (Ideal.ofBits .f32 0xFF800000#32)
          ((Finset.univ : Finset (Fin b)).fold max (Ideal.ofBits .f32 0xFF800000#32) (fun k => v (ix2 p k))) :=
  (Cert.LibKeepdims.shapeCast_a_a1_apply _ hc p u).trans
    (congrArg (max (Ideal.ofBits .f32 0xFF800000#32))
      ((Ideal.multiReduction_maximumf_single v _ h hφ hacc (ix1 p)).trans
        (congrArg (fun f => (Finset.univ : Finset (Fin b)).fold max (Ideal.ofBits .f32 0xFF800000#32) f)
          (funext fun k => congrArg v (lift_row h p k)))))

end Cert.Lib.RowReduceColumn

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowMaxColumn.lean ====
/-
  A row maximum kept as a column, read at an index, for any sizes: a `vector.multi_reduction <maximumf>` along the rows
  of an [a, b] array from `-∞`, reshaped to the column [a, 1] (what `keepdims=True` leaves), is at (p, u) the fold of
  `max` from `-∞` over row `p`'s `b` entries — the plain form, without the second comparison with `-∞` that a softmax
  written through `jax.nn` adds.
-/
import Idealize.ShloMosaic.PureOps.Ideal.Laws
import Idealize.ShloMosaic.Lib.ValueLayout
import proofs.«152880_j4604204942081_1_alg».proof.Proof.LibKeepdimsColumn
import proofs.«152880_j4604204942081_1_alg».proof.Proof.LibRowReduceColumn

noncomputable section

namespace Cert.Lib.RowMaxColumn

open Idealize.ShloMosaic Idealize.ShloMosaic.ValueIdx

/-- A row maximum from `-∞` kept as a column, read at (p, u): the fold of `max` over row `p`'s entries. -/
theorem rowMax_column_apply {a b : ℕ} (v : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ v 0xFF800000#32 h hφ hacc) hc (ix2 p u)
      = (Finset.univ : Finset (Fin b)).fold max (Ideal.ofBits .f32 0xFF800000#32) (fun k => v (ix2 p k)) :=
  (Cert.LibKeepdims.shapeCast_a_a1_apply _ hc p u).trans
    ((Ideal.multiReduction_maximumf_single v _ h hφ hacc (ix1 p)).trans
      (congrArg (fun f => (Finset.univ : Finset (Fin b)).fold max (Ideal.ofBits .f32 0xFF800000#32) f)
        (funext fun k => congrArg v (Cert.Lib.RowReduceColumn.lift_row h p k))))

end Cert.Lib.RowMaxColumn

end
-- ==== Proof.SoftmaxBody.lean ====
/-
  The log-softmax kernel's body at an index. The body adds the bias row (a [1, 40] block, one row repeated down the
  5000 rows of the table's block) to the table's block, takes each row's maximum from `-∞`, shifts the row by it,
  and subtracts the logarithm of the row's sum of exponentials: at (p, q) that is the log-softmax of row `p` of the
  biased block read at `q` — `Spec.rowLogSoftmax`. Each reduction is kept as a column [5000, 1] and broadcast back
  across the 40 columns, so the value at (p, q) reads the column at (p, 0).
-/
import proofs.«152880_j4604204942081_1_alg».proof.Proof.Gen.KernelIdeal.Skeleton
import proofs.«152880_j4604204942081_1_alg».proof.Proof.RowSpec
import proofs.«152880_j4604204942081_1_alg».proof.Proof.LibKeepdimsColumn
import proofs.«152880_j4604204942081_1_alg».proof.Proof.LibRowReduceColumn
import proofs.«152880_j4604204942081_1_alg».proof.Proof.LibColumnBroadcast
import proofs.«152880_j4604204942081_1_alg».proof.Proof.LibRowMaxColumn
import Idealize.ShloMosaic.Lib.Pipeline.Value
import Idealize.ShloMosaic.Lib.ValueLayout

noncomputable section

open scoped BigOperators

namespace Cert.KernelIdeal.RowBody

open Cert.KernelIdeal Cert.KernelIdeal.Gen Idealize.ShloMosaic Idealize.ShloMosaic.ValueIdx Cert.Gcn

/-- The table's block with the bias row added to each of its rows. -/
def biasedBlock (x0 : Vec Ideal S5000x40 .f32) (x1 : Vec Ideal S1x40 .f32) : FVec Ideal S5000x40 .f32 :=
  addf (shapeCast S5000x40 x0 shapeCasts_S5000x40_S5000x40)
    (broadcastTo S5000x40 (shapeCast S1x40 x1 shapeCasts_S1x40_S1x40) broadcasts_S1x40_S5000x40)

/-- Entry (p, k) of the biased block: the table's entry plus the bias of column `k`. -/
theorem biasedBlock_apply (x0 : Vec Ideal S5000x40 .f32) (x1 : Vec Ideal S1x40 .f32) (p : Fin 5000) (k : Fin 40) :
    biasedBlock x0 x1 (ix2 p k) = x0 (ix2 p k) + x1 (ix2 (0 : Fin 1) k) := by
  unfold biasedBlock
  rw [shapeCast_self, shapeCast_self]
  exact congrArg (x0 (ix2 p k) + ·) (broadcastTo_1b_ab_apply x1 broadcasts_S1x40_S5000x40 p k)

/-- Each row's maximum, as a column. -/
def topColumn (y : FVec Ideal S5000x40 .f32) : FVec Ideal S5000x1 .f32 :=
  shapeCast S5000x1 (multiReduction .maximumf [1] S5000 y 0xFF800000#32 reduces_S5000x40_S5000 (.inl rfl) rfl) shapeCasts_S5000_S5000x1

/-- The block with every row shifted by its maximum. -/
def shiftedBlock (y : FVec Ideal S5000x40 .f32) : FVec Ideal S5000x40 .f32 :=
  subf y (broadcastTo S5000x40 (topColumn y) broadcasts_S5000x1_S5000x40)

/-- Each row's sum of exponentials of the shifted entries, as a column. -/
def sumExpColumn (y : FVec Ideal S5000x40 .f32) : FVec Ideal S5000x1 .f32 :=
  shapeCast S5000x1 (multiReduction .add [1] S5000 (exp (shiftedBlock y)) 0x00000000#32 reduces_S5000x40_S5000 (.inl rfl) rfl) shapeCasts_S5000_S5000x1

/-- The body's stored value from the biased block on. -/
def logSoftmaxBlock (y : FVec Ideal S5000x40 .f32) : FVec Ideal S5000x40 .f32 :=
  subf (shiftedBlock y) (broadcastTo S5000x40 (log (sumExpColumn y)) broadcasts_S5000x1_S5000x40)

/-- The body's stored value is the log-softmax block of the biased block. -/
theorem payload_eq (x0 : Vec Ideal S5000x40 .f32) (x1 : Vec Ideal S1x40 .f32) :
    k1_pay1 (F := Ideal) x0 x1 = logSoftmaxBlock (biasedBlock x0 x1) := rfl

theorem topColumn_apply (y : FVec Ideal S5000x40 .f32) (p : Fin 5000) :
    topColumn y (ix2 p (0 : Fin 1)) = Spec.rowTop (fun k => y (ix2 p k)) :=
  Cert.Lib.RowMaxColumn.rowMax_column_apply y reduces_S5000x40_S5000 (.inl rfl) rfl shapeCasts_S5000_S5000x1 p 0

theorem shiftedBlock_apply (y : FVec Ideal S5000x40 .f32) (p : Fin 5000) (k : Fin 40) :
    shiftedBlock y (ix2 p k) = y (ix2 p k) - Spec.rowTop (fun k => y (ix2 p k)) := by
  unfold shiftedBlock
  rw [subf_apply, broadcastTo_a1_ab_apply, topColumn_apply]

theorem sumExpColumn_apply (y : FVec Ideal S5000x40 .f32) (p : Fin 5000) :
    sumExpColumn y (ix2 p (0 : Fin 1)) = ∑ k : Fin 40, Ideal.exp (y (ix2 p k) - Spec.rowTop (fun k => y (ix2 p k))) := by
  unfold sumExpColumn
  refine (Cert.Lib.RowReduceColumn.rowSum_column_apply (exp (shiftedBlock y)) reduces_S5000x40_S5000 (.inl rfl) rfl shapeCasts_S5000_S5000x1 p 0).trans ?_
  refine Finset.sum_congr rfl fun k _ => ?_
  show Ideal.exp (shiftedBlock y (ix2 p k)) = _
  rw [shiftedBlock_apply]

/-- Entry (p, q) of the log-softmax block: the log-softmax of row `p` at `q`. -/
theorem logSoftmaxBlock_apply (y : FVec Ideal S5000x40 .f32) (p : Fin 5000) (q : Fin 40) :
    logSoftmaxBlock y (ix2 p q) = Spec.rowLogSoftmax (fun k => y (ix2 p k)) q := by
  unfold logSoftmaxBlock Spec.rowLogSoftmax
  rw [subf_apply, shiftedBlock_apply, broadcastTo_a1_ab_apply]
  show _ - Ideal.log (sumExpColumn y (ix2 p (0 : Fin 1))) = _
  rw [sumExpColumn_apply]

/-- The body's stored value at (p, q), from the two blocks it loads. -/
theorem payload_apply (x0 : Vec Ideal S5000x40 .f32) (x1 : Vec Ideal S1x40 .f32) (p : Fin 5000) (q : Fin 40) :
    k1_pay1 (F := Ideal) x0 x1 (ix2 p q) = Spec.rowLogSoftmax (fun k => x0 (ix2 p k) + x1 (ix2 (0 : Fin 1) k)) q :=
  (congrFun (payload_eq x0 x1) (ix2 p q)).trans
    ((logSoftmaxBlock_apply (biasedBlock x0 x1) p q).trans
      (congrArg (fun f => Spec.rowLogSoftmax f q) (funext fun k => biasedBlock_apply x0 x1 p k)))

end Cert.KernelIdeal.RowBody

end
-- ==== Proof.SoftmaxRegion.lean ====
/-
  The second pallas_call as a whole-array function. Its grid has 20 points; at point `t` the body reads rows
  `5000·t … 5000·t + 4999` of the aggregated table and the one bias row, and writes the same rows of the result, each
  the log-softmax of the table's row plus the bias. So the block a point writes back is that block of
  `Spec.logSoftmaxRows` of the table and the bias row, the twenty blocks cover the [100000, 40] result, and the result
  array after the call is `Spec.logSoftmaxRows` of the two operand arrays as the call finds them (`V` a parameter).
-/
import proofs.«152880_j4604204942081_1_alg».proof.Proof.Gen.KernelIdeal.Frame
import proofs.«152880_j4604204942081_1_alg».proof.Proof.SoftmaxBody
import proofs.«152880_j4604204942081_1_alg».proof.Proof.RowSpec
import Idealize.ShloMosaic.Lib.Pipeline.Value
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.SoftmaxRegion

open Cert.KernelIdeal Cert.KernelIdeal.Gen Idealize.ShloMosaic.ValueIdx Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: block `t` of the table and of the result is row block `t`; the bias
    row has one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The table's block at point `t` is rows `5000·t …` of the array. -/
theorem tblock_apply (c : Dev nD) (t : Fin cfg1.N) (y : S5000x40.Idx) (i : S100000x40.Idx)
    (h0 : (i 0).val = t.val * 5000 + (y 0).val) (h1 : (i 1).val = (y 1).val) :
    (iblk1 V c 0 t : Vec Ideal S5000x40 .f32) y = (V c main_v43 : S100000x40.Idx → EReal) i := by
  obtain ⟨e0, e1, -⟩ := idx_facts t
  unfold iblk1
  rw [View.read_apply]
  show V c main_v43 _ = V c main_v43 _
  congr 1
  funext a
  apply Fin.ext
  match a with
  | ⟨0, _⟩ => show win1_0.index t 0 * 5000 + 1 * (y 0).val = (i 0).val; rw [e0, h0]; omega
  | ⟨1, _⟩ => show win1_0.index t 1 * 40 + 1 * (y 1).val = (i 1).val; rw [e1, h1]; omega

/-- The bias row's block at every point is the whole [1, 40] array. -/
theorem bblock_apply (c : Dev nD) (t : Fin cfg1.N) (y : S1x40.Idx) :
    (iblk1 V c 1 t : Vec Ideal S1x40 .f32) y = (V c main_v44 : S1x40.Idx → EReal) y := by
  obtain ⟨-, -, e2, e3, -⟩ := idx_facts t
  unfold iblk1
  rw [View.read_apply]
  show V c main_v44 _ = V c main_v44 _
  congr 1
  funext a
  apply Fin.ext
  match a with
  | ⟨0, _⟩ => show win1_1.index t 0 * 1 + 1 * (y 0).val = (y 0).val; rw [e2]; omega
  | ⟨1, _⟩ => show win1_1.index t 1 * 40 + 1 * (y 1).val = (y 1).val; rw [e3]; omega

/-- What point `t` writes back is block `t` of the row-wise log-softmax of the table plus the bias row. -/
theorem flushed_eq (c : Dev nD) (t : Fin cfg1.N) :
    (dat1 V c).flushed 2 t = ((cfg1.win 2).blk t).view.read (Elt Ideal)
      (Spec.logSoftmaxRows (V c main_v43) (fun k => (V c main_v44 : S1x40.Idx → EReal) (ix2 (0 : Fin 1) k))) := by
  show (cfg1.win 2).cut (grid1.coords t) ((dat1 V c).after 2 t) = _
  rw [after1_2]
  unfold out1_2
  rw [View.canon_unit_zero hz]
  simp only [View.ld_unit_zero (S := S5000x40) hz, View.ld_unit_zero (S := S1x40) hz]
  obtain ⟨-, -, -, -, e4, e5⟩ := idx_facts t
  refine funext fun j => ?_
  obtain ⟨p, q, rfl⟩ : ∃ (p : Fin 5000) (q : Fin 40), j = ix2 p q := ⟨j 0, j 1, eq_ix2 (n0 := 5000) (n1 := 40) j⟩
  refine (RowBody.payload_apply (iblk1 V c 0 t) (iblk1 V c 1 t) p q).trans ?_
  show _ = Spec.logSoftmaxRows (V c main_v43) (fun k => (V c main_v44 : S1x40.Idx → EReal) (ix2 (0 : Fin 1) k))
    (((cfg1.win 2).blk t).view.emb (ix2 p q))
  unfold Spec.logSoftmaxRows
  have h1 : ∀ k : Fin 40, (iblk1 V c 0 t : Vec Ideal S5000x40 .f32) (ix2 p k)
      = (V c main_v43 : S100000x40.Idx → EReal) (ix2 ((((cfg1.win 2).blk t).view.emb (ix2 p q)) 0) k) := fun k =>
    tblock_apply V c t (ix2 p k) (ix2 ((((cfg1.win 2).blk t).view.emb (ix2 p q)) 0) k)
      (by show win1_2.index t 0 * 5000 + 1 * p.val = t.val * 5000 + p.val; rw [e4]; omega) rfl
  have h2 : ∀ k : Fin 40, (iblk1 V c 1 t : Vec Ideal S1x40 .f32) (ix2 (0 : Fin 1) k)
      = (V c main_v44 : S1x40.Idx → EReal) (ix2 (0 : Fin 1) k) := fun k => bblock_apply V c t (ix2 (0 : Fin 1) k)
  have hq : q = (((cfg1.win 2).blk t).view.emb (ix2 p q)) 1 :=
    Fin.ext (by show q.val = win1_2.index t 1 * 40 + 1 * q.val; rw [e5]; omega)
  simp only [h1, h2]
  exact congrArg (Spec.rowLogSoftmax _) hq

/-- An index of the result is in point `t`'s block iff each coordinate is in the block's range on its axis. -/
theorem mem_blk (t : Fin cfg1.N) (i : S100000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v45).slice (win1_2.rect t)).set ↔ _
  rw [View.set_slice_whole, Rect.mem_set_unit]
  exact Iff.rfl

/-- Row `r` of the result is written by point `r / 5000`. -/
theorem cover (i : S100000x40.Idx) : ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 20 := N_1
  have ht : (i 0).val / 5000 < cfg1.N := by rw [hN]; omega
  refine ⟨⟨(i 0).val / 5000, ht⟩, flush1_2 _, ?_⟩
  rw [mem_blk]
  obtain ⟨-, -, -, -, e4, e5⟩ := idx_facts ⟨(i 0).val / 5000, ht⟩
  intro a
  match a with
  | ⟨0, _⟩ =>
    show win1_2.index ⟨(i 0).val / 5000, ht⟩ 0 * 5000 ≤ (i 0).val ∧ (i 0).val < win1_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ 1 * 40 ≤ (i 1).val ∧ (i 1).val < win1_2.index ⟨(i 0).val / 5000, ht⟩ 1 * 40 + 40
    rw [e5]; omega

/-- The result array after the call: the row-wise log-softmax of the table plus the bias row, as the call found them. -/
theorem final (c : Dev nD) : (dat1 V c).arrAt 2 cfg1.N
    = Spec.logSoftmaxRows (V c main_v43) (fun k => (V c main_v44 : S1x40.Idx → EReal) (ix2 (0 : Fin 1) k)) :=
  (dat1 V c).arrAt_eq_of_cover 2 _ (fun t _ => flushed_eq V c t) cover

end Cert.KernelIdeal.SoftmaxRegion

end
-- ==== Proof.KernelHost.lean ====
/-
  The idealized kernel's result as one function of its four arguments.

  Between its two pallas_calls the kernel's @main runs the same host operations as the reference. They are read here
  stretch by stretch, each from ANY contents `W` of the buffers before it: the first two stretches leave the edges' end
  points and the degree factor of every node, the third the weight of every edge, the fourth (after the first
  pallas_call) the aggregation of that call's result and the bias as a row [1, 40] — each a stage of GraphStage.lean
  applied to what `W` holds in the buffers the stretch reads; a buffer a later stretch reads and this one does not
  write is left as it was. A pallas_call leaves its result array at the whole-array function ProductRegion.lean /
  SoftmaxRegion.lean give and every other buffer as it found it. Chained from the launch memory to the last boundary,
  the result buffer ends at the row-wise log-softmax of the aggregated dense product plus the bias.
-/
import proofs.«152880_j4604204942081_1_alg».proof.Proof.Gen.KernelIdeal.Frame
import proofs.«152880_j4604204942081_1_alg».proof.Proof.GraphStage
import proofs.«152880_j4604204942081_1_alg».proof.Proof.LibConcatPair
import proofs.«152880_j4604204942081_1_alg».proof.Proof.ProductRegion
import proofs.«152880_j4604204942081_1_alg».proof.Proof.SoftmaxRegion
import Idealize.ShloMosaic.Lib.StableHlo.Run
import Idealize.ShloMosaic.Lib.ValueLayout

set_option maxRecDepth 16384

noncomputable section

namespace Cert.KernelIdeal.Between

open Cert.KernelIdeal Cert.KernelIdeal.Gen Idealize.ShloMosaic Idealize.ShloMosaic.TcCoe Idealize.SL.Sem Idealize.ShloMosaic.StableHlo
open Idealize.ShloMosaic.ValueIdx Cert.Gcn

/-! ## What each stretch of host operations leaves, from any contents before it -/

section Stretches

variable {F : FTy → Type} [FloatOps F]

/-- The first two stretches leave the edges' source end points, self loops appended, … -/
theorem first_sources (W : Valuation τ sig (Elt F)) :
    (after (hostOps0_1 (F := F)) (after (hostOps0 (F := F)) W) (Proc.devRef .tc main_v3) : (⟨S1700000, .i32⟩ : BufTy).Contents (Elt F)) = sources (F := F) (W (Proc.devRef .tc main_arg3)) := by
  dsimp only [hostOps0, hostOps0_1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  rfl
/-- … their target end points, … -/
theorem first_targets (W : Valuation τ sig (Elt F)) :
    (after (hostOps0_1 (F := F)) (after (hostOps0 (F := F)) W) (Proc.devRef .tc main_v6) : (⟨S1700000, .i32⟩ : BufTy).Contents (Elt F)) = targets (F := F) (W (Proc.devRef .tc main_arg3)) := by
  dsimp only [hostOps0, hostOps0_1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  rfl
/-- … and the degree factor of every node. -/
theorem first_factor (W : Valuation τ sig (Elt F)) :
    (after (hostOps0_1 (F := F)) (after (hostOps0 (F := F)) W) (Proc.devRef .tc main_v14) : (⟨S100000, .f32⟩ : BufTy).Contents (Elt F))
      = invSqrtDegree (F := F) (degree (F := F) (targets (F := F) (W (Proc.devRef .tc main_arg3)))) := by
  dsimp only [hostOps0, hostOps0_1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  rfl
theorem first_keep_arg0 (W : Valuation τ sig (Elt F)) : after (hostOps0_1 (F := F)) (after (hostOps0 (F := F)) W) (Proc.devRef .tc main_arg0) = W (Proc.devRef .tc main_arg0) := by
  dsimp only [hostOps0, hostOps0_1, hostOps0_2, hostOps1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem first_keep_arg1 (W : Valuation τ sig (Elt F)) : after (hostOps0_1 (F := F)) (after (hostOps0 (F := F)) W) (Proc.devRef .tc main_arg1) = W (Proc.devRef .tc main_arg1) := by
  dsimp only [hostOps0, hostOps0_1, hostOps0_2, hostOps1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem first_keep_arg2 (W : Valuation τ sig (Elt F)) : after (hostOps0_1 (F := F)) (after (hostOps0 (F := F)) W) (Proc.devRef .tc main_arg2) = W (Proc.devRef .tc main_arg2) := by
  dsimp only [hostOps0, hostOps0_1, hostOps0_2, hostOps1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]

/-- The third stretch leaves the weight of every edge. -/
theorem second_weight (W : Valuation τ sig (Elt F)) :
    (after (hostOps0_2 (F := F)) W (Proc.devRef .tc main_v29) : (⟨S1700000, .f32⟩ : BufTy).Contents (Elt F))
      = edgeWeightOf (F := F) (W (Proc.devRef .tc main_v14)) (W (Proc.devRef .tc main_v3)) (W (Proc.devRef .tc main_v6)) := by
  dsimp only [hostOps0_2]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  rfl
theorem second_keep_v3 (W : Valuation τ sig (Elt F)) : after (hostOps0_2 (F := F)) W (Proc.devRef .tc main_v3) = W (Proc.devRef .tc main_v3) := by
  dsimp only [hostOps0, hostOps0_1, hostOps0_2, hostOps1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem second_keep_v6 (W : Valuation τ sig (Elt F)) : after (hostOps0_2 (F := F)) W (Proc.devRef .tc main_v6) = W (Proc.devRef .tc main_v6) := by
  dsimp only [hostOps0, hostOps0_1, hostOps0_2, hostOps1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem second_keep_arg0 (W : Valuation τ sig (Elt F)) : after (hostOps0_2 (F := F)) W (Proc.devRef .tc main_arg0) = W (Proc.devRef .tc main_arg0) := by
  dsimp only [hostOps0, hostOps0_1, hostOps0_2, hostOps1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem second_keep_arg1 (W : Valuation τ sig (Elt F)) : after (hostOps0_2 (F := F)) W (Proc.devRef .tc main_arg1) = W (Proc.devRef .tc main_arg1) := by
  dsimp only [hostOps0, hostOps0_1, hostOps0_2, hostOps1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem second_keep_arg2 (W : Valuation τ sig (Elt F)) : after (hostOps0_2 (F := F)) W (Proc.devRef .tc main_arg2) = W (Proc.devRef .tc main_arg2) := by
  dsimp only [hostOps0, hostOps0_1, hostOps0_2, hostOps1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]

/-- The stretch between the two pallas_calls leaves the aggregation of the first call's result … -/
theorem third_aggregate (W : Valuation τ sig (Elt F)) :
    (after (hostOps1 (F := F)) W (Proc.devRef .tc main_v43) : (⟨S100000x40, .f32⟩ : BufTy).Contents (Elt F))
      = aggregate (F := F) (W (Proc.devRef .tc main_v30)) (W (Proc.devRef .tc main_v3)) (W (Proc.devRef .tc main_v6)) (W (Proc.devRef .tc main_v29)) := by
  dsimp only [hostOps1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  rfl
/-- … and the bias vector as a row [1, 40]. -/
theorem third_biasRow (W : Valuation τ sig (Elt F)) :
    (after (hostOps1 (F := F)) W (Proc.devRef .tc main_v44) : (⟨S1x40, .f32⟩ : BufTy).Contents (Elt F))
      = shapeCast S1x40 (W (Proc.devRef .tc main_arg2) : (⟨S40, .f32⟩ : BufTy).Contents (Elt F)) shapeCasts_S40_S1x40 := by
  dsimp only [hostOps1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  rfl

end Stretches

/-! ## The boundaries' contents, from the launch memory -/

variable (m : (ℓ : Loc nD τ sig) → Buf (Elt Ideal) ℓ) (ρ : Dev nD → PrngReg)

/-- At the first pallas_call's entry the three float arguments are as launched. -/
theorem entry_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  rw [second_keep_arg0, first_keep_arg0]
theorem entry_arg1 (c : Dev nD) : W3 m ρ c (Proc.devRef .tc main_arg1) = m ((c : Thread nD τ).loc main_arg1) := by
  show after hostOps0_2 (after hostOps0_1 (after hostOps0 (W0 m ρ c))) (Proc.devRef .tc main_arg1) = _
  rw [second_keep_arg1, first_keep_arg1]
theorem entry_arg2 (c : Dev nD) : W3 m ρ c (Proc.devRef .tc main_arg2) = m ((c : Thread nD τ).loc main_arg2) := by
  show after hostOps0_2 (after hostOps0_1 (after hostOps0 (W0 m ρ c))) (Proc.devRef .tc main_arg2) = _
  rw [second_keep_arg2, first_keep_arg2]
/-- There the edges' end points and weights are the stages of the launched edge list. -/
theorem entry_sources (c : Dev nD) :
    (W3 m ρ c (Proc.devRef .tc main_v3) : (⟨S1700000, .i32⟩ : BufTy).Contents (Elt Ideal)) = sources (F := Ideal) (m ((c : Thread nD τ).loc main_arg3)) := by
  show after hostOps0_2 (after hostOps0_1 (after hostOps0 (W0 m ρ c))) (Proc.devRef .tc main_v3) = _
  rw [second_keep_v3, first_sources]
theorem entry_targets (c : Dev nD) :
    (W3 m ρ c (Proc.devRef .tc main_v6) : (⟨S1700000, .i32⟩ : BufTy).Contents (Elt Ideal)) = targets (F := Ideal) (m ((c : Thread nD τ).loc main_arg3)) := by
  show after hostOps0_2 (after hostOps0_1 (after hostOps0 (W0 m ρ c))) (Proc.devRef .tc main_v6) = _
  rw [second_keep_v6, first_targets]
theorem entry_weight (c : Dev nD) :
    (W3 m ρ c (Proc.devRef .tc main_v29) : (⟨S1700000, .f32⟩ : BufTy).Contents (Elt Ideal))
      = edgeWeight (F := Ideal) (sources (F := Ideal) (m ((c : Thread nD τ).loc main_arg3))) (targets (F := Ideal) (m ((c : Thread nD τ).loc main_arg3))) := by
  show after hostOps0_2 (after hostOps0_1 (after hostOps0 (W0 m ρ c))) (Proc.devRef .tc main_v29) = _
  rw [second_weight, first_factor, first_sources, first_targets]
  rfl

/-- At the first pallas_call's exit its result array is the dense product of the launched `x` and `W`. -/
theorem exit_product (c : Dev nD) :
    (W4 m ρ c (Proc.devRef .tc main_v30) : (⟨S100000x40, .f32⟩ : BufTy).Contents (Elt Ideal))
      = Spec.product (m ((c : Thread nD τ).loc main_arg0)) (m ((c : Thread nD τ).loc main_arg1)) := by
  refine (W4_arr m ρ c 2).trans ((ProductRegion.final (V3 m ρ) c).trans ?_)
  show Spec.product (W3 m ρ c (Proc.devRef .tc main_arg0)) (W3 m ρ c (Proc.devRef .tc main_arg1)) = _
  rw [entry_arg0, entry_arg1]

/-- At the second pallas_call's entry the table is the aggregation of that product over the launched graph … -/
theorem entry_table (c : Dev nD) :
    (W5 m ρ c (Proc.devRef .tc main_v43) : (⟨S100000x40, .f32⟩ : BufTy).Contents (Elt Ideal))
      = aggregateOver (F := Ideal) (Spec.product (m ((c : Thread nD τ).loc main_arg0)) (m ((c : Thread nD τ).loc main_arg1)))
          (m ((c : Thread nD τ).loc main_arg3)) := by
  show after hostOps1 (W4 m ρ c) (Proc.devRef .tc main_v43) = _
  rw [third_aggregate, exit_product, W4_of_ne m ρ c main_v3 (by decide), W4_of_ne m ρ c main_v6 (by decide),
    W4_of_ne m ρ c main_v29 (by decide), entry_sources, entry_targets, entry_weight]
  rfl

/-- … and the bias row at column `k` is the launched bias at `k`. -/
theorem entry_biasRow (c : Dev nD) (k : Fin 40) :
    (W5 m ρ c (Proc.devRef .tc main_v44) : (⟨S1x40, .f32⟩ : BufTy).Contents (Elt Ideal)) (ix2 (0 : Fin 1) k)
      = (m ((c : Thread nD τ).loc main_arg2) : (⟨S40, .f32⟩ : BufTy).Contents (Elt Ideal)) (ix1 k) := by
  show after hostOps1 (W4 m ρ c) (Proc.devRef .tc main_v44) (ix2 (0 : Fin 1) k) = _
  rw [third_biasRow, W4_of_ne m ρ c main_arg2 (by decide), entry_arg2]
  exact shapeCast_a_1a_apply _ shapeCasts_S40_S1x40 (0 : Fin 1) k

/-- THE RESULT: at the last boundary the result buffer holds the row-wise log-softmax of the aggregated dense product
    plus the bias. -/
theorem result_eq (c : Dev nD) :
    (W6 m ρ c (Proc.devRef .tc main_v45) : (⟨S100000x40, .f32⟩ : BufTy).Contents (Elt Ideal))
      = Spec.logSoftmaxRows
          (aggregateOver (F := Ideal) (Spec.product (m ((c : Thread nD τ).loc main_arg0)) (m ((c : Thread nD τ).loc main_arg1)))
            (m ((c : Thread nD τ).loc main_arg3)))
          (fun k => (m ((c : Thread nD τ).loc main_arg2) : (⟨S40, .f32⟩ : BufTy).Contents (Elt Ideal)) (ix1 k)) := by
  refine (W6_arr m ρ c 2).trans ((SoftmaxRegion.final (V5 m ρ) c).trans ?_)
  show Spec.logSoftmaxRows (W5 m ρ c (Proc.devRef .tc main_v43)) (fun k => (W5 m ρ c (Proc.devRef .tc main_v44) : (⟨S1x40, .f32⟩ : BufTy).Contents (Elt Ideal)) (ix2 (0 : Fin 1) k)) = _
  rw [entry_table]
  exact congrArg (Spec.logSoftmaxRows _) (funext fun k => entry_biasRow m ρ c k)

end Cert.KernelIdeal.Between

end
-- ==== Proof.LibAfterAppend.lean ====
/-
  A general fact about a straight line of host operations, for any signature and any value type.

  * after_append: the buffer contents after two lines of operations run one after the other are the
    contents after the second line, started from the contents after the first.  It lets a long program be
    read one stretch at a time: the contents at a cut are a valuation like any other.
  * forall_append, forall_cons: a property of every operation of a joined line from the property of the
    parts (the side conditions of a run are stated over the whole line).
-/
import Idealize.ShloMosaic.Lib.StableHlo.Run

namespace Cert.Lib.AfterAppend

open Idealize.ShloMosaic Idealize.ShloMosaic.StableHlo

variable {τ : Topo} {sig : RefSig} {Val : EltTy → Type}

/-- The contents after a joined line are the contents after its second part, from the contents after its first. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A property of every element of a joined list, from the property of each part. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- A property of every element of a list with one more element in front. -/
theorem forall_cons {α : Type} {p : α → Prop} {a : α} {l : List α} (ha : p a) (hl : l.Forall p) :
    (a :: l).Forall p :=
  List.forall_iff_forall_mem.mpr fun x hx =>
    (List.mem_cons.mp hx).elim (fun e => e ▸ ha) (List.forall_iff_forall_mem.mp hl x)

end Cert.Lib.AfterAppend
-- ==== Proof.ReferenceRun.lean ====
/-
  The reference's run, read back: every weakly fair execution of its @main terminates with the result buffer at
  `Cert.Gcn.referenceResult` of the four argument arrays — the log-softmax of the aggregated product plus the bias,
  stage by stage as GraphStage.lean states them — and with the arguments unchanged. @main is a straight line of 75
  host operations, so the run is the fold of their results over the launch memory (`StableHlo.run_seq`). The line is
  read in eight stretches — the end points of the edges; the degree factor of every node; the weight of every edge;
  the product, its aggregation and the bias; then the log-softmax's row maxima, the shifted rows and their
  exponentials, the rows' sums, and the result — each from ANY contents `W` of the buffers before it: what a stretch
  leaves in a buffer a later one reads is a stage of GraphStage.lean applied to what `W` holds in the buffers the
  stretch reads, and every other buffer a later stretch reads is left as it was. The two reductions over a row (the
  maximum, the sum) each end their stretch, so that no later step looks inside one.
-/
import proofs.«152880_j4604204942081_1_alg».proof.Proof.GraphStage
import proofs.«152880_j4604204942081_1_alg».proof.Proof.LibConcatPair
import proofs.«152880_j4604204942081_1_alg».proof.Proof.LibAfterAppend
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem Idealize.ShloMosaic.StableHlo
open Cert.Gcn

variable {F : FTy → Type} [FloatOps F]

/-! ## @main as eight stretches of host operations -/

/-- Operations 0 to 6 of the reference's @main. -/
abbrev opsA : List (HloOp τ sig (Elt F)) :=
  [ nullary main_v0 (iotaInDim S100000 32 0),
    unary main_arg3 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg3 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩

/-- Operations 7 to 20 of the reference's @main. -/
abbrev opsB : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]
theorem opsB_sub : (opsB : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩

/-- Operations 21 to 39 of the reference's @main. -/
abbrev opsC : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- Operations 40 to 59 of the reference's @main. -/
abbrev opsD : List (HloOp τ sig (Elt F)) :=
  [ binary main_arg0 main_arg1 main_v30 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x40 ![0, 1] bcast_S1700000x1_S1700000x40_0_1 : (⟨S1700000x1, .f32⟩ : BufTy).Contents (Elt F) → (⟨S1700000x40, .f32⟩ : BufTy).Contents (Elt F)),
    binary main_v37 main_v39 main_v40 (mulf : (⟨S1700000x40, .f32⟩ : BufTy).Contents (Elt F) → (⟨S1700000x40, .f32⟩ : BufTy).Contents (Elt F) → (⟨S1700000x40, .f32⟩ : BufTy).Contents (Elt F)),
    nullary main_cst_8 (constant S_ .f32 0x00000000#32),
    unary main_cst_8 main_v41 (broadcastInDim S100000x40 ![] bcast_S_S100000x40 : (⟨S_, .f32⟩ : BufTy).Contents (Elt F) → (⟨S100000x40, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg2 main_v44 (broadcastInDim S1x40 ![1] bcast_S40_S1x40_1 : (⟨S40, .f32⟩ : BufTy).Contents (Elt F) → (⟨S1x40, .f32⟩ : BufTy).Contents (Elt F)),
    unary main_v44 main_v45 (broadcastInDim S100000x40 ![0, 1] bcast_S1x40_S100000x40_0_1 : (⟨S1x40, .f32⟩ : BufTy).Contents (Elt F) → (⟨S100000x40, .f32⟩ : BufTy).Contents (Elt F)),
    binary main_v43 main_v45 main_v46 (addf : (⟨S100000x40, .f32⟩ : BufTy).Contents (Elt F) → (⟨S100000x40, .f32⟩ : BufTy).Contents (Elt F) → (⟨S100000x40, .f32⟩ : BufTy).Contents (Elt F)) ]
theorem opsD_sub : (opsD : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- Operations 60 to 61 of the reference's @main. -/
abbrev opsE1 : List (HloOp τ sig (Elt F)) :=
  [ TRef.nullary (TRef.of (T := ⟨S_, .f32⟩) main_call1_cst) (constant S_ .f32 0xFF800000#32),
    TRef.binary (TRef.of (T := ⟨S100000x40, .f32⟩) main_v46) (TRef.of (T := ⟨S_, .f32⟩) main_call1_cst) (TRef.of (T := ⟨S100000, .f32⟩) main_call1_v0) (fun x v => Host.reduce FloatOps.maximumf x v reducesTo_S100000x40_S100000_d1 h_S_) ]
theorem opsE1_sub : (opsE1 : List (HloOp τ sig (Elt F))).Forall fun op => op.bufs ⊆ tcRefs τ sig :=
  ⟨nullary_bufs_sub .., binary_bufs_sub ..⟩

/-- Operations 62 to 68 of the reference's @main. -/
abbrev opsE2 : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v46) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp ]
theorem opsE2_sub : (opsE2 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub ..⟩

/-- Operations 69 to 70 of the reference's @main. -/
abbrev opsE3 : List (HloOp τ sig (Elt F)) :=
  [ TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_) ]
theorem opsE3_sub : (opsE3 : List (HloOp τ sig (Elt F))).Forall fun op => op.bufs ⊆ tcRefs τ sig :=
  ⟨nullary_bufs_sub .., binary_bufs_sub ..⟩

/-- Operations 71 to 74 of the reference's @main. -/
abbrev opsE4 : List (HloOp τ sig (Elt F)) :=
  [ TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v47) subf ]
theorem opsE4_sub : (opsE4 : List (HloOp τ sig (Elt F))).Forall fun op => op.bufs ⊆ tcRefs τ sig :=
  ⟨unary_bufs_sub .., unary_bufs_sub .., unary_bufs_sub .., binary_bufs_sub ..⟩

/-- The reference's @main as the list of its 75 host operations, in program order; the operations of the two functions it
    calls (the select of `jnp.where`, the log-softmax) stand where their calls stand, over the calls' own buffers. -/
abbrev ops : List (HloOp τ sig (Elt F)) := opsA ++ (opsB ++ (opsC ++ (opsD ++ (opsE1 ++ (opsE2 ++ (opsE3 ++ (opsE4)))))))

set_option maxRecDepth 16384 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  Cert.Lib.AfterAppend.forall_append opsA_sub (Cert.Lib.AfterAppend.forall_append opsB_sub (Cert.Lib.AfterAppend.forall_append opsC_sub (Cert.Lib.AfterAppend.forall_append opsD_sub (Cert.Lib.AfterAppend.forall_append opsE1_sub (Cert.Lib.AfterAppend.forall_append opsE2_sub (Cert.Lib.AfterAppend.forall_append opsE3_sub (opsE4_sub)))))))

/-! ## What each stretch leaves, from any contents before it -/

/-- The first stretch leaves the edges' source end points, self loops appended, … -/
theorem A_sources (W : Valuation τ sig (Elt F)) :
    (after (opsA (F := F)) W (Proc.devRef .tc main_v3) : (⟨S1700000, .i32⟩ : BufTy).Contents (Elt F)) = sources (F := F) (W (Proc.devRef .tc main_arg3)) := by
  dsimp only [opsA]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  rfl
/-- … and their target end points. -/
theorem A_targets (W : Valuation τ sig (Elt F)) :
    (after (opsA (F := F)) W (Proc.devRef .tc main_v6) : (⟨S1700000, .i32⟩ : BufTy).Contents (Elt F)) = targets (F := F) (W (Proc.devRef .tc main_arg3)) := by
  dsimp only [opsA]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  rfl

/-- The second stretch leaves the degree factor of every node. -/
theorem B_factor (W : Valuation τ sig (Elt F)) :
    (after (opsB (F := F)) W (Proc.devRef .tc main_v14) : (⟨S100000, .f32⟩ : BufTy).Contents (Elt F)) = invSqrtDegree (F := F) (degree (F := F) (W (Proc.devRef .tc main_v6))) := by
  dsimp only [opsB]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  rfl

/-- The third stretch leaves the weight of every edge. -/
theorem C_weight (W : Valuation τ sig (Elt F)) :
    (after (opsC (F := F)) W (Proc.devRef .tc main_v29) : (⟨S1700000, .f32⟩ : BufTy).Contents (Elt F))
      = edgeWeightOf (F := F) (W (Proc.devRef .tc main_v14)) (W (Proc.devRef .tc main_v3)) (W (Proc.devRef .tc main_v6)) := by
  dsimp only [opsC]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  rfl

/-- The fourth stretch leaves the aggregated product plus the bias. -/
theorem D_biased (W : Valuation τ sig (Elt F)) :
    (after (opsD (F := F)) W (Proc.devRef .tc main_v46) : (⟨S100000x40, .f32⟩ : BufTy).Contents (Elt F))
      = biased (F := F) (aggregate (F := F) (Host.dotGeneral (F := F) dot_S100000x256_S256x40_S100000x40_1_0_0_1_n_n none (W (Proc.devRef .tc main_arg0)) (W (Proc.devRef .tc main_arg1)))
          (W (Proc.devRef .tc main_v3)) (W (Proc.devRef .tc main_v6)) (W (Proc.devRef .tc main_v29))) (W (Proc.devRef .tc main_arg2)) := by
  dsimp only [opsD]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  rfl

/-- The fifth stretch leaves every row's maximum. -/
theorem E1_rowMax (W : Valuation τ sig (Elt F)) :
    (after (opsE1 (F := F)) W (Proc.devRef .tc main_call1_v0) : (⟨S100000, .f32⟩ : BufTy).Contents (Elt F)) = hostRowMaxFrom (F := F) (W (Proc.devRef .tc main_v46)) := by
  unfold hostRowMaxFrom
  dsimp only [opsE1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  simp only [TRef.toBuf, TRef.ofBuf, cast_eq]

/-- The sixth leaves the rows shifted by their maxima, … -/
theorem E2_shifted (W : Valuation τ sig (Elt F)) :
    (after (opsE2 (F := F)) W (Proc.devRef .tc main_call1_v5) : (⟨S100000x40, .f32⟩ : BufTy).Contents (Elt F))
      = hostShiftBy (F := F) (W (Proc.devRef .tc main_v46)) (W (Proc.devRef .tc main_call1_v0)) := by
  unfold hostShiftBy
  dsimp only [opsE2]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  simp only [TRef.toBuf, TRef.ofBuf, cast_eq]
/-- … and their exponentials. -/
theorem E2_exp (W : Valuation τ sig (Elt F)) :
    (after (opsE2 (F := F)) W (Proc.devRef .tc main_call1_v6) : (⟨S100000x40, .f32⟩ : BufTy).Contents (Elt F))
      = Host.exp (F := F) (hostShiftBy (F := F) (W (Proc.devRef .tc main_v46)) (W (Proc.devRef .tc main_call1_v0))) := by
  unfold hostShiftBy
  dsimp only [opsE2]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  simp only [TRef.toBuf, TRef.ofBuf, cast_eq]

/-- The seventh leaves every row's sum of exponentials. -/
theorem E3_rowSum (W : Valuation τ sig (Elt F)) :
    (after (opsE3 (F := F)) W (Proc.devRef .tc main_call1_v7) : (⟨S100000, .f32⟩ : BufTy).Contents (Elt F)) = hostRowSum (F := F) (W (Proc.devRef .tc main_call1_v6)) := by
  unfold hostRowSum
  dsimp only [opsE3]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  simp only [TRef.toBuf, TRef.ofBuf, cast_eq]

/-- The last leaves the shifted rows less the logarithm of their sums. -/
theorem E4_result (W : Valuation τ sig (Elt F)) :
    (after (opsE4 (F := F)) W (Proc.devRef .tc main_v47) : (⟨S100000x40, .f32⟩ : BufTy).Contents (Elt F))
      = hostLessLogOf (F := F) (W (Proc.devRef .tc main_call1_v5)) (W (Proc.devRef .tc main_call1_v7)) := by
  unfold hostLessLogOf
  dsimp only [opsE4]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
  simp only [TRef.toBuf, TRef.ofBuf, cast_eq]

/-! ## The buffers a stretch leaves as they were -/

theorem A_keep_arg0 (W : Valuation τ sig (Elt F)) : after (opsA (F := F)) W (Proc.devRef .tc main_arg0) = W (Proc.devRef .tc main_arg0) := by
  dsimp only [opsA]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem A_keep_arg1 (W : Valuation τ sig (Elt F)) : after (opsA (F := F)) W (Proc.devRef .tc main_arg1) = W (Proc.devRef .tc main_arg1) := by
  dsimp only [opsA]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem A_keep_arg2 (W : Valuation τ sig (Elt F)) : after (opsA (F := F)) W (Proc.devRef .tc main_arg2) = W (Proc.devRef .tc main_arg2) := by
  dsimp only [opsA]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem A_keep_arg3 (W : Valuation τ sig (Elt F)) : after (opsA (F := F)) W (Proc.devRef .tc main_arg3) = W (Proc.devRef .tc main_arg3) := by
  dsimp only [opsA]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem B_keep_arg0 (W : Valuation τ sig (Elt F)) : after (opsB (F := F)) W (Proc.devRef .tc main_arg0) = W (Proc.devRef .tc main_arg0) := by
  dsimp only [opsB]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem B_keep_arg1 (W : Valuation τ sig (Elt F)) : after (opsB (F := F)) W (Proc.devRef .tc main_arg1) = W (Proc.devRef .tc main_arg1) := by
  dsimp only [opsB]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem B_keep_arg2 (W : Valuation τ sig (Elt F)) : after (opsB (F := F)) W (Proc.devRef .tc main_arg2) = W (Proc.devRef .tc main_arg2) := by
  dsimp only [opsB]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem B_keep_arg3 (W : Valuation τ sig (Elt F)) : after (opsB (F := F)) W (Proc.devRef .tc main_arg3) = W (Proc.devRef .tc main_arg3) := by
  dsimp only [opsB]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem C_keep_arg0 (W : Valuation τ sig (Elt F)) : after (opsC (F := F)) W (Proc.devRef .tc main_arg0) = W (Proc.devRef .tc main_arg0) := by
  dsimp only [opsC]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem C_keep_arg1 (W : Valuation τ sig (Elt F)) : after (opsC (F := F)) W (Proc.devRef .tc main_arg1) = W (Proc.devRef .tc main_arg1) := by
  dsimp only [opsC]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem C_keep_arg2 (W : Valuation τ sig (Elt F)) : after (opsC (F := F)) W (Proc.devRef .tc main_arg2) = W (Proc.devRef .tc main_arg2) := by
  dsimp only [opsC]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem C_keep_arg3 (W : Valuation τ sig (Elt F)) : after (opsC (F := F)) W (Proc.devRef .tc main_arg3) = W (Proc.devRef .tc main_arg3) := by
  dsimp only [opsC]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem D_keep_arg0 (W : Valuation τ sig (Elt F)) : after (opsD (F := F)) W (Proc.devRef .tc main_arg0) = W (Proc.devRef .tc main_arg0) := by
  dsimp only [opsD]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem D_keep_arg1 (W : Valuation τ sig (Elt F)) : after (opsD (F := F)) W (Proc.devRef .tc main_arg1) = W (Proc.devRef .tc main_arg1) := by
  dsimp only [opsD]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem D_keep_arg2 (W : Valuation τ sig (Elt F)) : after (opsD (F := F)) W (Proc.devRef .tc main_arg2) = W (Proc.devRef .tc main_arg2) := by
  dsimp only [opsD]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem D_keep_arg3 (W : Valuation τ sig (Elt F)) : after (opsD (F := F)) W (Proc.devRef .tc main_arg3) = W (Proc.devRef .tc main_arg3) := by
  dsimp only [opsD]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E1_keep_arg0 (W : Valuation τ sig (Elt F)) : after (opsE1 (F := F)) W (Proc.devRef .tc main_arg0) = W (Proc.devRef .tc main_arg0) := by
  dsimp only [opsE1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E1_keep_arg1 (W : Valuation τ sig (Elt F)) : after (opsE1 (F := F)) W (Proc.devRef .tc main_arg1) = W (Proc.devRef .tc main_arg1) := by
  dsimp only [opsE1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E1_keep_arg2 (W : Valuation τ sig (Elt F)) : after (opsE1 (F := F)) W (Proc.devRef .tc main_arg2) = W (Proc.devRef .tc main_arg2) := by
  dsimp only [opsE1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E1_keep_arg3 (W : Valuation τ sig (Elt F)) : after (opsE1 (F := F)) W (Proc.devRef .tc main_arg3) = W (Proc.devRef .tc main_arg3) := by
  dsimp only [opsE1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E2_keep_arg0 (W : Valuation τ sig (Elt F)) : after (opsE2 (F := F)) W (Proc.devRef .tc main_arg0) = W (Proc.devRef .tc main_arg0) := by
  dsimp only [opsE2]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E2_keep_arg1 (W : Valuation τ sig (Elt F)) : after (opsE2 (F := F)) W (Proc.devRef .tc main_arg1) = W (Proc.devRef .tc main_arg1) := by
  dsimp only [opsE2]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E2_keep_arg2 (W : Valuation τ sig (Elt F)) : after (opsE2 (F := F)) W (Proc.devRef .tc main_arg2) = W (Proc.devRef .tc main_arg2) := by
  dsimp only [opsE2]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E2_keep_arg3 (W : Valuation τ sig (Elt F)) : after (opsE2 (F := F)) W (Proc.devRef .tc main_arg3) = W (Proc.devRef .tc main_arg3) := by
  dsimp only [opsE2]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E3_keep_arg0 (W : Valuation τ sig (Elt F)) : after (opsE3 (F := F)) W (Proc.devRef .tc main_arg0) = W (Proc.devRef .tc main_arg0) := by
  dsimp only [opsE3]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E3_keep_arg1 (W : Valuation τ sig (Elt F)) : after (opsE3 (F := F)) W (Proc.devRef .tc main_arg1) = W (Proc.devRef .tc main_arg1) := by
  dsimp only [opsE3]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E3_keep_arg2 (W : Valuation τ sig (Elt F)) : after (opsE3 (F := F)) W (Proc.devRef .tc main_arg2) = W (Proc.devRef .tc main_arg2) := by
  dsimp only [opsE3]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E3_keep_arg3 (W : Valuation τ sig (Elt F)) : after (opsE3 (F := F)) W (Proc.devRef .tc main_arg3) = W (Proc.devRef .tc main_arg3) := by
  dsimp only [opsE3]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E4_keep_arg0 (W : Valuation τ sig (Elt F)) : after (opsE4 (F := F)) W (Proc.devRef .tc main_arg0) = W (Proc.devRef .tc main_arg0) := by
  dsimp only [opsE4]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E4_keep_arg1 (W : Valuation τ sig (Elt F)) : after (opsE4 (F := F)) W (Proc.devRef .tc main_arg1) = W (Proc.devRef .tc main_arg1) := by
  dsimp only [opsE4]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E4_keep_arg2 (W : Valuation τ sig (Elt F)) : after (opsE4 (F := F)) W (Proc.devRef .tc main_arg2) = W (Proc.devRef .tc main_arg2) := by
  dsimp only [opsE4]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E4_keep_arg3 (W : Valuation τ sig (Elt F)) : after (opsE4 (F := F)) W (Proc.devRef .tc main_arg3) = W (Proc.devRef .tc main_arg3) := by
  dsimp only [opsE4]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem B_keep_v3 (W : Valuation τ sig (Elt F)) : after (opsB (F := F)) W (Proc.devRef .tc main_v3) = W (Proc.devRef .tc main_v3) := by
  dsimp only [opsB]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem B_keep_v6 (W : Valuation τ sig (Elt F)) : after (opsB (F := F)) W (Proc.devRef .tc main_v6) = W (Proc.devRef .tc main_v6) := by
  dsimp only [opsB]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem C_keep_v3 (W : Valuation τ sig (Elt F)) : after (opsC (F := F)) W (Proc.devRef .tc main_v3) = W (Proc.devRef .tc main_v3) := by
  dsimp only [opsC]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem C_keep_v6 (W : Valuation τ sig (Elt F)) : after (opsC (F := F)) W (Proc.devRef .tc main_v6) = W (Proc.devRef .tc main_v6) := by
  dsimp only [opsC]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E1_keep_v46 (W : Valuation τ sig (Elt F)) : after (opsE1 (F := F)) W (Proc.devRef .tc main_v46) = W (Proc.devRef .tc main_v46) := by
  dsimp only [opsE1]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]
theorem E3_keep_call1_v5 (W : Valuation τ sig (Elt F)) : after (opsE3 (F := F)) W (Proc.devRef .tc main_call1_v5) = W (Proc.devRef .tc main_call1_v5) := by
  dsimp only [opsE3]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.Lib.ConcatPair.cat2_fold]

/-! ## The whole line -/

/-- The result buffer after the whole line, from any contents `V`: `referenceResult` of what `V` holds in the arguments. -/
theorem result_eq (V : Valuation τ sig (Elt F)) :
    (after (ops (F := F)) V (Proc.devRef .tc main_v47) : (⟨S100000x40, .f32⟩ : BufTy).Contents (Elt F))
      = referenceResult (F := F) (V (Proc.devRef .tc main_arg0)) (V (Proc.devRef .tc main_arg1)) (V (Proc.devRef .tc main_arg2)) (V (Proc.devRef .tc main_arg3)) := by
  unfold referenceResult hostLogSoftmax aggregateOver edgeWeight
  show after (opsA ++ (opsB ++ (opsC ++ (opsD ++ (opsE1 ++ (opsE2 ++ (opsE3 ++ (opsE4)))))))) V (Proc.devRef .tc main_v47) = _
  rw [Cert.Lib.AfterAppend.after_append, Cert.Lib.AfterAppend.after_append, Cert.Lib.AfterAppend.after_append, Cert.Lib.AfterAppend.after_append, Cert.Lib.AfterAppend.after_append, Cert.Lib.AfterAppend.after_append, Cert.Lib.AfterAppend.after_append]
  rw [E4_result, E3_rowSum, E3_keep_call1_v5, E2_exp, E2_shifted, E1_rowMax, E1_keep_v46, D_biased,
    C_weight, C_keep_v3, C_keep_v6, C_keep_arg0, C_keep_arg1, C_keep_arg2,
    B_factor, B_keep_v3, B_keep_v6, B_keep_arg0, B_keep_arg1, B_keep_arg2,
    A_sources, A_targets, A_keep_arg0, A_keep_arg1, A_keep_arg2]

/-- A buffer every stretch leaves as it was is, after the whole line, what it was. -/
theorem kept (V : Valuation τ sig (Elt F)) (b : Ref sig .tc)
    (hA : ∀ W : Valuation τ sig (Elt F), after (opsA (F := F)) W (Proc.devRef .tc b) = W (Proc.devRef .tc b))
    (hB : ∀ W : Valuation τ sig (Elt F), after (opsB (F := F)) W (Proc.devRef .tc b) = W (Proc.devRef .tc b))
    (hC : ∀ W : Valuation τ sig (Elt F), after (opsC (F := F)) W (Proc.devRef .tc b) = W (Proc.devRef .tc b))
    (hD : ∀ W : Valuation τ sig (Elt F), after (opsD (F := F)) W (Proc.devRef .tc b) = W (Proc.devRef .tc b))
    (hE1 : ∀ W : Valuation τ sig (Elt F), after (opsE1 (F := F)) W (Proc.devRef .tc b) = W (Proc.devRef .tc b))
    (hE2 : ∀ W : Valuation τ sig (Elt F), after (opsE2 (F := F)) W (Proc.devRef .tc b) = W (Proc.devRef .tc b))
    (hE3 : ∀ W : Valuation τ sig (Elt F), after (opsE3 (F := F)) W (Proc.devRef .tc b) = W (Proc.devRef .tc b))
    (hE4 : ∀ W : Valuation τ sig (Elt F), after (opsE4 (F := F)) W (Proc.devRef .tc b) = W (Proc.devRef .tc b)) :
    after (ops (F := F)) V (Proc.devRef .tc b) = V (Proc.devRef .tc b) := by
  show after (opsA ++ (opsB ++ (opsC ++ (opsD ++ (opsE1 ++ (opsE2 ++ (opsE3 ++ (opsE4)))))))) V (Proc.devRef .tc b) = _
  rw [Cert.Lib.AfterAppend.after_append, Cert.Lib.AfterAppend.after_append, Cert.Lib.AfterAppend.after_append, Cert.Lib.AfterAppend.after_append, Cert.Lib.AfterAppend.after_append, Cert.Lib.AfterAppend.after_append, Cert.Lib.AfterAppend.after_append, hE4, hE3, hE2, hE1, hD, hC, hB, hA]

/-! ## The run -/

/-- On every device, from any memory with zero counters: every weakly fair execution of the reference's @main
    terminates with its result at `referenceResult` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = referenceResult (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v47).trans (result_eq (launchContents m c)),
      (h c main_arg0).trans (kept _ main_arg0 A_keep_arg0 B_keep_arg0 C_keep_arg0 D_keep_arg0 E1_keep_arg0 E2_keep_arg0 E3_keep_arg0 E4_keep_arg0),
      (h c main_arg1).trans (kept _ main_arg1 A_keep_arg1 B_keep_arg1 C_keep_arg1 D_keep_arg1 E1_keep_arg1 E2_keep_arg1 E3_keep_arg1 E4_keep_arg1),
      (h c main_arg2).trans (kept _ main_arg2 A_keep_arg2 B_keep_arg2 C_keep_arg2 D_keep_arg2 E1_keep_arg2 E2_keep_arg2 E3_keep_arg2 E4_keep_arg2),
      (h c main_arg3).trans (kept _ main_arg3 A_keep_arg3 B_keep_arg3 C_keep_arg3 D_keep_arg3 E1_keep_arg3 E2_keep_arg3 E3_keep_arg3 E4_keep_arg3)⟩)
    (run_seq scopedRefs_eq scopedSems_eq defs main (fun _ => ops) main_eq (fun _ => ops_sub) m ρ)

end Cert.ReferenceIdeal.Whole

end
-- ==== Proof.Bridge.lean ====
/-
  The host's spellings read at an index, at the ideal instance.

  * The reference's `dot_general` of `x` and `W` is `Spec.product x W`: the record contracts axis 1 of `x` with axis 0 of
    `W`, so entry (r, c) is the sum over `k` of `x[r, k] · W[k, c]`.
  * The host's log-softmax of the table plus the bias is `Spec.logSoftmaxRows`. The host takes the row maximum from
    `-∞` and compares it with `-∞` once more, which changes nothing (`Spec.max_rowTop`); it starts the row's sum of
    exponentials from the zero word, which adds nothing (`Spec.zero_word_add`); its reductions are kept as columns
    [100000, 1] and broadcast across the 40 columns, so entry (r, q) reads the column at (r, 0); the bias vector is
    made a row [1, 40] and broadcast down the rows, so entry (r, q) reads `b[q]`.
-/
import proofs.«152880_j4604204942081_1_alg».proof.Proof.GraphStage
import proofs.«152880_j4604204942081_1_alg».proof.Proof.RowSpec
import proofs.«152880_j4604204942081_1_alg».proof.Proof.LibRowReduceColumn
import Idealize.ShloMosaic.Lib.Pipeline.Value
import Idealize.ShloMosaic.Lib.ValueIdx
import Idealize.ShloMosaic.PureOps.Ideal.Laws

noncomputable section

open scoped BigOperators

namespace Cert.Gcn.Bridge

open Cert.ReferenceIdeal Cert.ReferenceIdeal.Gen Idealize.ShloMosaic Idealize.ShloMosaic.ValueIdx Cert.Gcn

/-! ## The product -/

theorem lhs_row (i : S100000x40.Idx) (q : dot_S100000x256_S256x40_S100000x40_1_0_0_1_n_n.contr.Idx) :
    (dot_S100000x256_S256x40_S100000x40_1_0_0_1_n_n.lhsIdx i q 0).val = (i 0).val := by
  unfold DotDims.lhsIdx
  rw [dif_neg (show ¬(0 : Fin S100000x256.rank) ∈ dot_S100000x256_S256x40_S100000x40_1_0_0_1_n_n.lhsBatch by decide), dif_pos (show (0 : Fin S100000x256.rank) ∈ dot_S100000x256_S256x40_S100000x40_1_0_0_1_n_n.lhsNonContracting by decide)]
  rfl
theorem lhs_contracted (i : S100000x40.Idx) (q : dot_S100000x256_S256x40_S100000x40_1_0_0_1_n_n.contr.Idx) :
    (dot_S100000x256_S256x40_S100000x40_1_0_0_1_n_n.lhsIdx i q 1).val = (q ⟨0, by decide⟩).val :=
  dot_S100000x256_S256x40_S100000x40_1_0_0_1_n_n.lhsIdx_val_of_single rfl i q
theorem rhs_contracted (i : S100000x40.Idx) (q : dot_S100000x256_S256x40_S100000x40_1_0_0_1_n_n.contr.Idx) :
    (dot_S100000x256_S256x40_S100000x40_1_0_0_1_n_n.rhsIdx i q 0).val = (q ⟨0, by decide⟩).val :=
  dot_S100000x256_S256x40_S100000x40_1_0_0_1_n_n.rhsIdx_val_of_single rfl i q
theorem rhs_column (i : S100000x40.Idx) (q : dot_S100000x256_S256x40_S100000x40_1_0_0_1_n_n.contr.Idx) :
    (dot_S100000x256_S256x40_S100000x40_1_0_0_1_n_n.rhsIdx i q 1).val = (i 1).val := by
  unfold DotDims.rhsIdx
  rw [dif_neg (show ¬(1 : Fin S256x40.rank) ∈ dot_S100000x256_S256x40_S100000x40_1_0_0_1_n_n.rhsBatch by decide), dif_pos (show (1 : Fin S256x40.rank) ∈ dot_S100000x256_S256x40_S100000x40_1_0_0_1_n_n.rhsNonContracting by decide)]
  rfl

/-- The host's product of `x` and `W` is the dense product, entry by entry. -/
theorem dotGeneral_eq_product (x : FVec Ideal S100000x256 .f32) (W : FVec Ideal S256x40 .f32) :
    Host.dotGeneral (F := Ideal) dot_S100000x256_S256x40_S100000x40_1_0_0_1_n_n none x W = Spec.product x W := by
  funext j
  simp only [Host.dotGeneral]
  unfold Spec.product
  rw [Ideal.dotGeneral_apply, ← Equiv.sum_comp (ValueIdx.contrEquiv1 dot_S100000x256_S256x40_S100000x40_1_0_0_1_n_n 256 rfl rfl).symm]
  refine Finset.sum_congr rfl fun k _ => ?_
  have hk := ValueIdx.contrEquiv1_symm_val dot_S100000x256_S256x40_S100000x40_1_0_0_1_n_n 256 rfl rfl k
  have el : dot_S100000x256_S256x40_S100000x40_1_0_0_1_n_n.lhsIdx j ((ValueIdx.contrEquiv1 dot_S100000x256_S256x40_S100000x40_1_0_0_1_n_n 256 rfl rfl).symm k) = ix2 (j 0) k := funext fun a => Fin.ext (by
    match a with
    | ⟨0, _⟩ => exact lhs_row _ _
    | ⟨1, _⟩ => exact (lhs_contracted _ _).trans hk)
  have er : dot_S100000x256_S256x40_S100000x40_1_0_0_1_n_n.rhsIdx j ((ValueIdx.contrEquiv1 dot_S100000x256_S256x40_S100000x40_1_0_0_1_n_n 256 rfl rfl).symm k) = ix2 k (j 1) := funext fun a => Fin.ext (by
    match a with
    | ⟨0, _⟩ => exact (rhs_contracted _ _).trans hk
    | ⟨1, _⟩ => exact rhs_column _ _)
  rw [el, er]
  rfl

/-! ## The host's layout operations at an index -/

section Layout
variable {α : Type}

/-- A vector of 100000 as a column, read at (r, u). -/
theorem column_of_vector (v : S100000.Idx → α) (r : Fin 100000) (u : Fin 1) :
    broadcastInDim S100000x1 ![0] bcast_S100000_S100000x1_0 v (ix2 r u) = v (ix1 r) :=
  broadcastInDim_apply _ bcast_S100000_S100000x1_0 v (ix2 r u) (ix1 r) (fun a => match a with
    | ⟨0, _⟩ => by show r.val = if (100000 : Nat) = 1 then 0 else r.val; rw [if_neg (by decide)])

/-- A column [100000, 1] repeated across the 40 columns, read at (r, q). -/
theorem across_columns (v : S100000x1.Idx → α) (r : Fin 100000) (q : Fin 40) :
    broadcastInDim S100000x40 ![0, 1] bcast_S100000x1_S100000x40_0_1 v (ix2 r q) = v (ix2 r (0 : Fin 1)) :=
  broadcastInDim_apply _ bcast_S100000x1_S100000x40_0_1 v (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- A vector of 40 as a row, read at (u, q). -/
theorem row_of_vector (b : S40.Idx → α) (u : Fin 1) (q : Fin 40) :
    broadcastInDim S1x40 ![1] bcast_S40_S1x40_1 b (ix2 u q) = b (ix1 q) :=
  broadcastInDim_apply _ bcast_S40_S1x40_1 b (ix2 u q) (ix1 q) (fun a => match a with
    | ⟨0, _⟩ => by show q.val = if (40 : Nat) = 1 then 0 else q.val; rw [if_neg (by decide)])

/-- A row [1, 40] repeated down the 100000 rows, read at (r, q). -/
theorem down_rows (v : S1x40.Idx → α) (r : Fin 100000) (q : Fin 40) :
    broadcastInDim S100000x40 ![0, 1] bcast_S1x40_S100000x40_0_1 v (ix2 r q) = v (ix2 (0 : Fin 1) q) :=
  broadcastInDim_apply _ bcast_S1x40_S100000x40_0_1 v (ix2 r q) (ix2 (0 : Fin 1) q) (fun a => match a with
    | ⟨0, _⟩ => by show 0 = if (1 : Nat) = 1 then 0 else r.val; rw [if_pos rfl]
    | ⟨1, _⟩ => by show q.val = if (40 : Nat) = 1 then 0 else q.val; rw [if_neg (by decide)])

/-- A scalar repeated over a vector of 100000. -/
theorem splat (v : S_.Idx → α) (i : S100000.Idx) :
    broadcastInDim S100000 ![] bcast_S_S100000 v i = v ix0 :=
  broadcastInDim_apply _ bcast_S_S100000 v i ix0 (fun a => a.elim0)

end Layout

/-! ## The log-softmax -/

/-- The host's exponential and logarithm are pointwise. -/
theorem hostExp_apply {s : Shape} (v : FVec Ideal s .f32) (i : s.Idx) : Host.exp (F := Ideal) v i = Ideal.exp (v i) := rfl
theorem hostLog_apply {s : Shape} (v : FVec Ideal s .f32) (i : s.Idx) : Host.log (F := Ideal) v i = Ideal.log (v i) := rfl

/-- Entry (r, k) of the biased table. -/
theorem biased_apply (S : FVec Ideal S100000x40 .f32) (b : FVec Ideal S40 .f32) (r : Fin 100000) (k : Fin 40) :
    biased (F := Ideal) S b (ix2 r k) = S (ix2 r k) + b (ix1 k) := by
  unfold biased
  rw [addf_apply, down_rows, row_of_vector]

/-- Every row's maximum from `-∞`, at row `r`: the row's greatest entry. -/
theorem hostRowMaxFrom_apply (y : FVec Ideal S100000x40 .f32) (r : Fin 100000) :
    hostRowMaxFrom (F := Ideal) y (ix1 r) = Spec.rowTop (fun k => y (ix2 r k)) := by
  unfold hostRowMaxFrom
  rw [Host.reduce_eq_fold_single FloatOps.maximumf y _ reducesTo_S100000x40_S100000_d1 (by decide) h_S_ (ix1 r)]
  unfold Spec.rowTop
  exact congrArg (fun f => (Finset.univ : Finset (Fin 40)).fold max (Ideal.ofBits .f32 0xFF800000#32) f)
    (funext fun k => congrArg y (Cert.Lib.RowReduceColumn.lift_row _ r k))

/-- Entry (r, k) of the table with every row shifted by `max(-∞, t_r)`. -/
theorem hostShiftBy_apply (y : FVec Ideal S100000x40 .f32) (t : FVec Ideal S100000 .f32) (r : Fin 100000) (k : Fin 40) :
    hostShiftBy (F := Ideal) y t (ix2 r k) = y (ix2 r k) - max (Ideal.ofBits .f32 0xFF800000#32) (t (ix1 r)) := by
  unfold hostShiftBy
  rw [subf_apply, across_columns, column_of_vector, maximumf_apply, splat]
  rfl

/-- Every row's sum from the zero word, at row `r`. -/
theorem hostRowSum_apply (x : FVec Ideal S100000x40 .f32) (r : Fin 100000) :
    hostRowSum (F := Ideal) x (ix1 r) = ∑ k : Fin 40, x (ix2 r k) := by
  unfold hostRowSum
  simp only [Host.reduceAdd, Ideal.hostReduceAdd_def]
  rw [Ideal.hostReduceAdd_single reducesTo_S100000x40_S100000_d1 (by decide)]
  refine (congrArg (_ + ·) (Finset.sum_congr rfl fun k _ => congrArg x (Cert.Lib.RowReduceColumn.lift_row _ r k))).trans ?_
  exact Spec.zero_word_add _

/-- Entry (r, q) of the table less the logarithm of a value per row. -/
theorem hostLessLogOf_apply (z : FVec Ideal S100000x40 .f32) (t : FVec Ideal S100000 .f32) (r : Fin 100000) (q : Fin 40) :
    hostLessLogOf (F := Ideal) z t (ix2 r q) = z (ix2 r q) - Ideal.log (t (ix1 r)) := by
  unfold hostLessLogOf
  rw [subf_apply, across_columns, hostLog_apply, column_of_vector]

/-- The host's log-softmax at (r, q): the log-softmax of row `r` at `q`. -/
theorem hostLogSoftmax_apply (y : FVec Ideal S100000x40 .f32) (r : Fin 100000) (q : Fin 40) :
    hostLogSoftmax (F := Ideal) y (ix2 r q) = Spec.rowLogSoftmax (fun k => y (ix2 r k)) q := by
  have hz : ∀ k : Fin 40, hostShiftBy (F := Ideal) y (hostRowMaxFrom (F := Ideal) y) (ix2 r k)
      = y (ix2 r k) - Spec.rowTop (fun k => y (ix2 r k)) := fun k => by
    rw [hostShiftBy_apply, hostRowMaxFrom_apply, Spec.max_rowTop]
  unfold hostLogSoftmax Spec.rowLogSoftmax
  rw [hostLessLogOf_apply, hostRowSum_apply, hz]
  simp only [hostExp_apply, hz]

/-- The host's log-softmax of the table plus the bias is the row-wise log-softmax of the specification. -/
theorem hostLogSoftmax_biased (S : FVec Ideal S100000x40 .f32) (b : FVec Ideal S40 .f32) :
    hostLogSoftmax (F := Ideal) (biased (F := Ideal) S b) = Spec.logSoftmaxRows S (fun k => b (ix1 k)) := by
  funext j
  obtain ⟨r, q, rfl⟩ : ∃ (r : Fin 100000) (q : Fin 40), j = ix2 r q := ⟨j 0, j 1, eq_ix2 (n0 := 100000) (n1 := 40) j⟩
  rw [hostLogSoftmax_apply]
  unfold Spec.logSoftmaxRows
  exact congrArg (fun f => Spec.rowLogSoftmax f q) (funext fun k => biased_apply S b r k)

end Cert.Gcn.Bridge

end
-- ==== Proof.lean ====
/-
  The certificate of the graph-convolution layer: the Pallas kernel (a blocked product `x · W`, the normalised
  aggregation over the graph on the host, a blocked bias-and-log-softmax) against the jnp reference (the same product
  and aggregation as host operations, then jax's log_softmax), over the extended reals.

  Both programs compute, at (r, q), the log-softmax of row `r` of `S + b` at `q`, where `S` is the aggregation over
  the graph of the dense product `x · W` (`Cert.Gcn.aggregateOver`, the same host operations in both programs, never
  opened): `Spec.logSoftmaxRows (aggregateOver (Spec.product x W) e) b`.
  * The kernel: each pallas_call's result array is a whole-array function of its operand arrays (the twenty row
    blocks cover the array; ProductRegion.lean, SoftmaxRegion.lean), and the host operations between the calls are
    the stages of GraphStage.lean (KernelHost.lean); its run with the result named is KernelRun.lean.
  * The reference: its run ends at `Cert.Gcn.referenceResult` (ReferenceRun.lean), which is the same function: the
    host's product is the dense product, and the host's log-softmax differs from the kernel's only by a second
    comparison of the row maximum with `-∞` and a sum started from the zero word (Bridge.lean).
  No law used here needs finiteness — sums are only re-indexed, never distributed over — so the precondition is not
  opened. The ideal pass rewrote nothing, so `preserves` is `True`.
-/
import proofs.«152880_j4604204942081_1_alg».proof.Defs
import proofs.«152880_j4604204942081_1_alg».proof.Proof.Gen.Kernel
import proofs.«152880_j4604204942081_1_alg».proof.Proof.Gen.Kernel.Frame
import proofs.«152880_j4604204942081_1_alg».proof.Proof.Gen.KernelIdeal
import proofs.«152880_j4604204942081_1_alg».proof.Proof.Gen.KernelIdeal.Frame
import proofs.«152880_j4604204942081_1_alg».proof.Proof.Gen.ReferenceIdeal
import proofs.«152880_j4604204942081_1_alg».proof.Proof.Gen.Pre_finite_inputs
import proofs.«152880_j4604204942081_1_alg».proof.Proof.KernelRun
import proofs.«152880_j4604204942081_1_alg».proof.Proof.KernelHost
import proofs.«152880_j4604204942081_1_alg».proof.Proof.ReferenceRun
import proofs.«152880_j4604204942081_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The printed kernel runs and leaves its arguments: the generated frame, at the word-level instance. -/
theorem frame_kernel : Cert.frame_Kernel := fun m ρ _ => Cert.Kernel.Gen.frame m ρ

/-- The idealized kernel runs and leaves its arguments: the generated frame, at the ideal instance. -/
theorem frame_kernelIdeal : Cert.frame_KernelIdeal := fun m ρ _ => Cert.KernelIdeal.Gen.frame m ρ

/-- The reference runs and leaves its arguments: its run, the result dropped. -/
theorem frame_referenceIdeal : Cert.frame_ReferenceIdeal := fun m ρ _ =>
  (θ_run Cert.ReferenceIdeal.defs _ _).mono (fun _ h c => (h c).2) (Cert.ReferenceIdeal.Whole.run (F := Ideal) m ρ)

/-- The ideal pass rewrote no operation. -/
theorem preserves : Cert.preserves_Kernel_KernelIdeal := trivial

/-- From memories agreeing on the four arguments both programs end with the row-wise log-softmax of the aggregated
    dense product plus the bias. -/
theorem algebraic : Cert.algebraic_KernelIdeal_ReferenceIdeal := by
  intro m ρ m' ρ' _ hagree
  refine ⟨fun c => Cert.Gcn.Spec.logSoftmaxRows
      (Cert.Gcn.aggregateOver (F := Ideal)
        (Cert.Gcn.Spec.product (m ((c.tc : Thread Cert.KernelIdeal.nD Cert.KernelIdeal.τ).loc Cert.KernelIdeal.main_arg0))
          (m ((c.tc : Thread Cert.KernelIdeal.nD Cert.KernelIdeal.τ).loc Cert.KernelIdeal.main_arg1)))
        (m ((c.tc : Thread Cert.KernelIdeal.nD Cert.KernelIdeal.τ).loc Cert.KernelIdeal.main_arg3)))
      (fun k => (m ((c.tc : Thread Cert.KernelIdeal.nD Cert.KernelIdeal.τ).loc Cert.KernelIdeal.main_arg2) :
        (⟨Cert.KernelIdeal.S40, .f32⟩ : BufTy).Contents (Elt Ideal)) (ix1 k)), ?_, ?_⟩
  · exact (θ_run Cert.KernelIdeal.defs _ _).mono
      (fun r h c => ⟨(h c).1.trans (Cert.KernelIdeal.Between.result_eq m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.Whole.run (F := Ideal) m' ρ')
    rw [(hagree c).1, (hagree c).2.1, (hagree c).2.2.1, (hagree c).2.2.2]
    unfold Cert.Gcn.referenceResult
    rw [Cert.Gcn.Bridge.hostLogSoftmax_biased, Cert.Gcn.Bridge.dotGeneral_eq_product]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
